-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  main_v53

def fn_part2 {F : FTy → Type} [FloatOps F] (main_arg8 : FVec F S64x128 .f32) (main_arg9 : FVec F S64x128 .f32) (main_arg10 : FVec F S64 .f32) (main_arg11 : FVec F S64x128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_v48 main_v49 main_v50

def fn_part1 {F : FTy → Type} [FloatOps F] (main_arg5 : FVec F S128x128 .f32) (main_arg6 : FVec F S64x128 .f32) (main_arg7 : FVec F S64 .f32) (main_arg8 : FVec F S64x128 .f32) (main_arg9 : FVec F S64x128 .f32) (main_arg10 : FVec F S64 .f32) (main_arg11 : FVec F S64x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S64x128 .f32) (main_arg7 : FVec F S64 .f32) (main_arg8 : FVec F S64x128 .f32) (main_arg9 : FVec F S64x128 .f32) (main_arg10 : FVec F S64 .f32) (main_arg11 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 74
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S800000x1, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S1x128, .f32⟩
  | .hbm, ⟨46, _⟩ => ⟨S128x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x1, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S128x64, .f32⟩
  | .hbm, ⟨67, _⟩ => ⟨S1x64, .f32⟩
  | .hbm, ⟨68, _⟩ => ⟨S128x64, .f32⟩
  | .hbm, ⟨69, _⟩ => ⟨S128x64, .f32⟩
  | .hbm, ⟨70, _⟩ => ⟨S1x64, .f32⟩
  | .hbm, ⟨71, _⟩ => ⟨S128x64, .f32⟩
  | .hbm, ⟨72, _⟩ => ⟨S50000x64, .f32⟩
  | .hbm, ⟨73, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S128x64, .f32⟩
  | .local _ .vmem, ⟨17, _⟩ => ⟨S1x64, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51_0 : Ref sig .tc := ⟨.hbm, 72, rfl⟩
abbrev main_v51_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S50000x64.size a
  hwx1_8 : ∀ i : grid1.Coords, EltTy.bits .f32 = 32 ∨ (Rect.block (s := S50000x64) S5000x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S50000x64.size a
  hwx1_9 : ∀ i : grid1.Coords, EltTy.bits .f32 = 32 ∨ (Rect.block (s := S50000x64) S5000x64.size (cc1_transform_9 i) (hinb1_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51_0) S5000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v51_1) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S64x128, .f32⟩
  | 7 => ⟨S64, .f32⟩
  | 8 => ⟨S64x128, .f32⟩
  | 9 => ⟨S64x128, .f32⟩
  | 10 => ⟨S64, .f32⟩
  | 11 => ⟨S64x128, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S800000x1, .f32⟩
  | 26 => ⟨S800000x128, .f32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S128x128, .f32⟩
  | 45 => ⟨S50000x128, .f32⟩
  | 46 => ⟨S1x128, .f32⟩
  | 47 => ⟨S50000x128, .f32⟩
  | 48 => ⟨S50000x128, .f32⟩
  | 49 => ⟨S128x128, .f32⟩
  | 50 => ⟨S50000x128, .f32⟩
  | 51 => ⟨S50000x128, .f32⟩
  | 52 => ⟨S_, .f32⟩
  | 53 => ⟨S50000x128, .f32⟩
  | 54 => ⟨S50000x128, .i1⟩
  | 55 => ⟨S_, .f32⟩
  | 56 => ⟨S50000x128, .f32⟩
  | 57 => ⟨S50000x128, .i1⟩
  | 58 => ⟨S_, .f32⟩
  | 59 => ⟨S_, .f32⟩
  | 60 => ⟨S50000x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S800000x1, .f32⟩
  | 77 => ⟨S800000x128, .f32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S_, .f32⟩
  | 84 => ⟨S800000, .f32⟩
  | 85 => ⟨S_, .f32⟩
  | 86 => ⟨S50000, .f32⟩
  | 87 => ⟨S800000x1, .i32⟩
  | 88 => ⟨S50000, .f32⟩
  | 89 => ⟨S_, .f32⟩
  | 90 => ⟨S50000, .f32⟩
  | 91 => ⟨S50000, .f32⟩
  | 92 => ⟨S50000x1, .f32⟩
  | 93 => ⟨S50000x128, .f32⟩
  | 94 => ⟨S50000x128, .f32⟩
  | 95 => ⟨S128x64, .f32⟩
  | 96 => ⟨S50000x64, .f32⟩
  | 97 => ⟨S1x64, .f32⟩
  | 98 => ⟨S50000x64, .f32⟩
  | 99 => ⟨S50000x64, .f32⟩
  | 100 => ⟨S128x64, .f32⟩
  | 101 => ⟨S50000x64, .f32⟩
  | 102 => ⟨S50000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S800000x1, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S_, .f32⟩
  | 120 => ⟨S800000, .f32⟩
  | 121 => ⟨S_, .f32⟩
  | 122 => ⟨S50000, .f32⟩
  | 123 => ⟨S800000x1, .i32⟩
  | 124 => ⟨S50000, .f32⟩
  | 125 => ⟨S_, .f32⟩
  | 126 => ⟨S50000, .f32⟩
  | 127 => ⟨S50000, .f32⟩
  | _ => ⟨S50000x128, .f32⟩

abbrev hbmTy0_1 (i : Nat) : BufTy := match i % 128 with
  | 0 => ⟨S50000x1, .f32⟩
  | 1 => ⟨S50000x128, .f32⟩
  | 2 => ⟨S50000x128, .f32⟩
  | 3 => ⟨S128x64, .f32⟩
  | 4 => ⟨S50000x64, .f32⟩
  | 5 => ⟨S1x64, .f32⟩
  | 6 => ⟨S50000x64, .f32⟩
  | 7 => ⟨S50000x64, .f32⟩
  | 8 => ⟨S128x64, .f32⟩
  | 9 => ⟨S50000x64, .f32⟩
  | 10 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_cst_1 : Ref sig .tc := ⟨.hbm, 58, rfl⟩
abbrev main_call0_call0_v0 : Ref sig .tc := ⟨.hbm, 59, rfl⟩
abbrev main_call0_call0_v1 : Ref sig .tc := ⟨.hbm, 60, rfl⟩
abbrev main_call0_v4 : Ref sig .tc := ⟨.hbm, 61, rfl⟩
abbrev main_call0_v5 : Ref sig .tc := ⟨.hbm, 62, rfl⟩
abbrev main_call0_cst_2 : Ref sig .tc := ⟨.hbm, 63, rfl⟩
abbrev main_call0_v6 : Ref sig .tc := ⟨.hbm, 64, rfl⟩
abbrev main_call0_v7 : Ref sig .tc := ⟨.hbm, 65, rfl⟩
abbrev main_v34 : Ref sig .tc := ⟨.hbm, 66, rfl⟩
abbrev main_c_4 : Ref sig .tc := ⟨.hbm, 67, rfl⟩
abbrev main_v35 : Ref sig .tc := ⟨.hbm, 68, rfl⟩
abbrev main_v36 : Ref sig .tc := ⟨.hbm, 69, rfl⟩
abbrev main_c_5 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_6 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_7 : Ref sig .tc := ⟨.hbm, 83, rfl⟩
abbrev main_v48 : Ref sig .tc := ⟨.hbm, 84, rfl⟩
abbrev main_cst_8 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_9 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_10 : Ref sig .tc := ⟨.hbm, 103, rfl⟩
abbrev main_v65 : Ref sig .tc := ⟨.hbm, 104, rfl⟩
abbrev main_v66 : Ref sig .tc := ⟨.hbm, 105, rfl⟩
abbrev main_c_11 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_12 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_13 : Ref sig .tc := ⟨.hbm, 119, rfl⟩
abbrev main_v78 : Ref sig .tc := ⟨.hbm, 120, rfl⟩
abbrev main_cst_14 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_15 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KerRun.lean ====
/-
  The kernel program's run with its two results named.

  The program is four stretches: host operations, the first pallas_call, host operations, the second pallas_call.
  The buffer contents at each boundary are a fold from the launch memory (W0, W1, W2, W3, W4 of the generated frame).
  Every terminating execution ends with EVERY unscoped buffer at the last boundary's contents W4; read at the two
  result buffers this names the program's two results, and read at the twelve arguments it says they are unchanged.
-/
import proofs.«114850_j36369783063167_1_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program on the TensorCores terminates,
    nothing faulting, and in every final state the two result buffers hold the last boundary's contents and the
    argument arrays are as launched. -/
theorem run_values : θ_run defs (onTc (τ := τ) (main (F := F))) ⟨m, fun _ => 0, ρ⟩ (fun r => ∀ c : Dev nD,
      r.2.mem ((c.tc : Thread nD τ).loc main_v51_0) = Gen.W4 m ρ c (Proc.devRef .tc main_v51_0)
      ∧ r.2.mem ((c.tc : Thread nD τ).loc main_v51_1) = Gen.W4 m ρ c (Proc.devRef .tc main_v51_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v51_0 (by decide)),
       h c _ (mem_uc main_v51_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.HandRun

end
-- ==== Proof.LibElu.lean ====
/-
  The ELU over the extended reals, as a kernel body and as a host program spell it. Independent of any program.

  ELU(z) is z where z is positive and e^z − 1 elsewhere. A kernel body writes it as one select on z > 0 between z and
  e^z − 1.0. jax's elu is lowered to: where z > 0 take z, elsewhere 1.0 · expm1(w), with w the array that is 0 where
  z > 0 and z elsewhere (the inner select keeps the exponential from overflowing on the branch that is not taken).
  Over the extended reals the word 0.0 denotes 0, the word 1.0 denotes 1, expm1 w is e^w − 1, and on the branch
  where z is not positive the inner select gives z back and 1 · y = y: both spellings are ELU at every index,
  infinities included.
-/
import Idealize.ShloMosaic.Lib.ValueIdx
import Idealize.ShloMosaic.Lib.Pipeline.Value
import Idealize.ShloMosaic.PureOps.Ideal
import Idealize.ShloMosaic.PureOps.Ideal.Laws
import Idealize.ShloMosaic.PureOps.IdealRules

noncomputable section

namespace Cert.Lib.Elu

open Idealize.ShloMosaic Idealize.ShloMosaic.ValueIdx

/-- ELU on the extended reals: z where z is positive, e^z − 1 elsewhere. -/
def eluE (z : EReal) : EReal := if 0 < z then z else Ideal.exp z - 1

/-- The f32 word of 1.0 denotes the extended real 1. -/
theorem one_word : Ideal.ofBits .f32 0x3F800000#32 = 1 := IdealRules.sign_bit.ideal_onePat .f32

/-- The scalar 0.0 broadcast to any shape is 0 at every index. -/
theorem zeros_apply {s : Shape} (h0 : (⟨0, ![]⟩ : Shape).BroadcastsInDim s ![]) (i : s.Idx) :
    broadcastInDim s ![] h0 (constant (F := Ideal) ⟨0, ![]⟩ .f32 0x00000000#32) i = 0 :=
  (broadcastInDim_apply ![] h0 _ i ix0 (fun a => a.elim0)).trans Ideal.ofBits_zero_f32

/-- The scalar 1.0 broadcast to any shape is 1 at every index. -/
theorem ones_apply {s : Shape} (h0 : (⟨0, ![]⟩ : Shape).BroadcastsInDim s ![]) (i : s.Idx) :
    broadcastInDim s ![] h0 (constant (F := Ideal) ⟨0, ![]⟩ .f32 0x3F800000#32) i = 1 :=
  (broadcastInDim_apply ![] h0 _ i ix0 (fun a => a.elim0)).trans one_word

/-- The host's expm1 at an index is e^w − 1. -/
theorem expm1_apply {s : Shape} (w : FVec Ideal s .f32) (i : s.Idx) : Host.expm1 w i = Ideal.exp (w i) - 1 := rfl

/-- The select on z > 0 between z and e^z − 1.0, on one extended real, is ELU. -/
theorem eluScalar (z : EReal) :
    Scalar.select (Ideal.cmp .ogt z (Ideal.ofBits .f32 0x00000000#32)) z (Ideal.exp z - Ideal.ofBits .f32 0x3F800000#32) = eluE z := by
  rw [Ideal.ofBits_zero_f32, one_word]
  unfold eluE
  by_cases h : (0 : EReal) < z
  · rw [if_pos h]
    show Scalar.select (BitVec.ofBool (decide (0 < z))) _ _ = z
    rw [decide_eq_true h]; exact select_one _ _
  · rw [if_neg h]
    show Scalar.select (BitVec.ofBool (decide (0 < z))) _ _ = _
    rw [decide_eq_false h]; exact select_zero _ _

/-- A KERNEL BODY's ELU — select (z > splat 0.0) z (exp z − splat 1.0) — read at an index. -/
theorem kernelElu_apply {s : Shape} (z : FVec Ideal s .f32) (i : s.Idx) :
    select (cmpf .ogt z (broadcast s (Scalar.ofBits (F := Ideal) .f32 0x00000000#32))) z
        (subf (exp z) (broadcast s (Scalar.ofBits (F := Ideal) .f32 0x3F800000#32))) i = eluE (z i) :=
  eluScalar (z i)

/-- jax's LOWERED ELU on the host — select (z > 0) z (1.0 · expm1 (select (z > 0) 0 z)), the scalars broadcast to the
    array's shape, the inner zero passed through a convert to its own type — read at an index. -/
theorem hostElu_apply {s : Shape} (z : FVec Ideal s .f32) (h0 : (⟨0, ![]⟩ : Shape).BroadcastsInDim s ![]) (i : s.Idx) :
    select (cmpf .ogt z (broadcastInDim s ![] h0 (constant (F := Ideal) ⟨0, ![]⟩ .f32 0x00000000#32))) z
        (mulf (broadcastInDim s ![] h0 (constant (F := Ideal) ⟨0, ![]⟩ .f32 0x3F800000#32))
          (Host.expm1
            (select (cmpf .ogt z (broadcastInDim s ![] h0 (constant (F := Ideal) ⟨0, ![]⟩ .f32 0x00000000#32)))
              (broadcastInDim s ![] h0 (id (constant (F := Ideal) ⟨0, ![]⟩ .f32 0x00000000#32))) z))) i
      = eluE (z i) := by
  rw [select_apply, cmpf_apply, mulf_apply, zeros_apply, ones_apply, expm1_apply, select_apply, cmpf_apply, zeros_apply]
  have hc : FloatOps.cmpf (F := Ideal) .ogt (z i) 0 = BitVec.ofBool (decide (0 < z i)) := rfl
  rw [hc]
  unfold eluE
  by_cases h : (0 : EReal) < z i
  · rw [if_pos h, decide_eq_true h]; exact select_one _ _
  · rw [if_neg h, decide_eq_false h]
    refine (select_zero _ _).trans ?_
    rw [one_mul]
    exact congrArg (fun w => Ideal.exp w - 1) (select_zero _ _)

end Cert.Lib.Elu

end
-- ==== Proof.Spec.lean ====
/-
  The two programs' host arithmetic, named.

  Both programs aggregate messages the same way: every edge e carries feat[src e] · w e to node dst e, the
  contributions to a node are added up and divided by max(1, number of edges arriving at the node).  The
  aggregation is kept as ONE function of its operands on each side ('Ker.agg', 'Ref.agg'); nothing below
  ever looks inside it.  The reference then applies dense layers (a product with a transposed weight, a bias
  row, a second product) and, after the first layer, the ELU written out with 'expm1' and two selects.
-/
import proofs.«114850_j36369783063167_1_alg».proof.Proof.Gen.KernelIdeal
import proofs.«114850_j36369783063167_1_alg».proof.Proof.Gen.ReferenceIdeal
import proofs.«114850_j36369783063167_1_alg».proof.Proof.LibElu
import Idealize.ShloMosaic.Lib.ValueIdx
import Idealize.ShloMosaic.PureOps.Ideal

noncomputable section

namespace Cert.Sage

open Idealize.ShloMosaic

variable {F : FTy → Type} [FloatOps F]

/-! ## The reference's vocabulary -/
namespace Ref

open Cert.ReferenceIdeal Cert.ReferenceIdeal.Facts₀

/-- Row k of the edge table as a vector of node numbers. -/
def row0 (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000
def row1 (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A source row with negative entries counted from the end, stood up as a column of start indices. -/
def srcCol (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

def dstCol (dst : (⟨S800000, .i32⟩ : BufTy).Contents (Elt F)) : (⟨S800000x1, .i32⟩ : BufTy).Contents (Elt F) :=
  broadcastInDim S800000x1 ![0] bcast_S800000_S800000x1_0 dst

/-- The mean aggregation: the weighted rows of feat gathered at the sources, added up at the destinations,
    divided by max(1, in-degree). -/
def agg (feat : (⟨S50000x128, .f32⟩ : BufTy).Contents (Elt F)) (src dst : (⟨S800000, .i32⟩ : BufTy).Contents (Elt F))
    (ea : (⟨S800000, .f32⟩ : BufTy).Contents (Elt F)) : (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (dstCol dst)
      (mulf (Host.gather gather_S50000x128_S800000x1_S800000x128_1_0_n_n_0_1_1128 feat (srcCol src))
        (broadcastInDim S800000x128 ![0, 1] bcast_S800000x1_S800000x128_0_1 (broadcastInDim S800000x1 ![0] bcast_S800000_S800000x1_0 ea))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (dstCol dst)
            (broadcastInDim S800000 ![] bcast_S_S800000 (constant S_ .f32 0x3F800000#32)))
          (broadcastInDim S50000 ![] bcast_S_S50000 (constant S_ .f32 0x3F800000#32)))))

/-- The dense layer into 128 features: mean · Wrelᵀ + b + x · Wrootᵀ. -/
def dense128 (mean x : (⟨S50000x128, .f32⟩ : BufTy).Contents (Elt F)) (wrel : (⟨S128x128, .f32⟩ : BufTy).Contents (Elt F))
    (b : (⟨S128, .f32⟩ : BufTy).Contents (Elt F)) (wroot : (⟨S128x128, .f32⟩ : BufTy).Contents (Elt F)) :
    (⟨S50000x128, .f32⟩ : BufTy).Contents (Elt F) :=
  addf
    (addf (Host.dotGeneral dot_S50000x128_S128x128_S50000x128_1_0_0_1_n_n none mean (transpose S128x128 [1, 0] wrel transposes_S128x128_S128x128_1_0))
      (broadcastInDim S50000x128 ![0, 1] bcast_S1x128_S50000x128_0_1 (broadcastInDim S1x128 ![1] bcast_S128_S1x128_1 b)))
    (Host.dotGeneral dot_S50000x128_S128x128_S50000x128_1_0_0_1_n_n none x (transpose S128x128 [1, 0] wroot transposes_S128x128_S128x128_1_0))

/-- The dense layer into 64 features. -/
def dense64 (mean x : (⟨S50000x128, .f32⟩ : BufTy).Contents (Elt F)) (wrel : (⟨S64x128, .f32⟩ : BufTy).Contents (Elt F))
    (b : (⟨S64, .f32⟩ : BufTy).Contents (Elt F)) (wroot : (⟨S64x128, .f32⟩ : BufTy).Contents (Elt F)) :
    (⟨S50000x64, .f32⟩ : BufTy).Contents (Elt F) :=
  addf
    (addf (Host.dotGeneral dot_S50000x128_S128x64_S50000x64_1_0_0_1_n_n none mean (transpose S128x64 [1, 0] wrel transposes_S64x128_S128x64_1_0))
      (broadcastInDim S50000x64 ![0, 1] bcast_S1x64_S50000x64_0_1 (broadcastInDim S1x64 ![1] bcast_S64_S1x64_1 b)))
    (Host.dotGeneral dot_S50000x128_S128x64_S50000x64_1_0_0_1_n_n none x (transpose S128x64 [1, 0] wroot transposes_S64x128_S128x64_1_0))

/-- jax's ELU as it is lowered: where z > 0 it is z, elsewhere 1 · expm1 of (z where it is not positive, 0 where it is). -/
def elu (z : (⟨S50000x128, .f32⟩ : BufTy).Contents (Elt F)) : (⟨S50000x128, .f32⟩ : BufTy).Contents (Elt F) :=
  select (cmpf .ogt z (broadcastInDim S50000x128 ![] bcast_S_S50000x128 (constant S_ .f32 0x00000000#32))) z
    (mulf (broadcastInDim S50000x128 ![] bcast_S_S50000x128 (constant S_ .f32 0x3F800000#32))
      (Host.expm1
        (select (cmpf .ogt z (broadcastInDim S50000x128 ![] bcast_S_S50000x128 (constant S_ .f32 0x00000000#32)))
          (broadcastInDim S50000x128 ![] bcast_S_S50000x128 (id (constant S_ .f32 0x00000000#32))) z)))

/-- The hidden layer. -/
def hidden (x : (⟨S50000x128, .f32⟩ : BufTy).Contents (Elt F)) (src dst : (⟨S800000, .i32⟩ : BufTy).Contents (Elt F))
    (ea : (⟨S800000, .f32⟩ : BufTy).Contents (Elt F)) (wrel : (⟨S128x128, .f32⟩ : BufTy).Contents (Elt F))
    (b : (⟨S128, .f32⟩ : BufTy).Contents (Elt F)) (wroot : (⟨S128x128, .f32⟩ : BufTy).Contents (Elt F)) :
    (⟨S50000x128, .f32⟩ : BufTy).Contents (Elt F) :=
  elu (dense128 (agg x src dst ea) x wrel b wroot)

/-- An output head over the hidden layer h. -/
def head (h : (⟨S50000x128, .f32⟩ : BufTy).Contents (Elt F)) (src dst : (⟨S800000, .i32⟩ : BufTy).Contents (Elt F))
    (ea : (⟨S800000, .f32⟩ : BufTy).Contents (Elt F)) (wrel : (⟨S64x128, .f32⟩ : BufTy).Contents (Elt F))
    (b : (⟨S64, .f32⟩ : BufTy).Contents (Elt F)) (wroot : (⟨S64x128, .f32⟩ : BufTy).Contents (Elt F)) :
    (⟨S50000x64, .f32⟩ : BufTy).Contents (Elt F) :=
  dense64 (agg h src dst ea) h wrel b wroot

end Ref

/-! ## The kernel program's vocabulary -/
namespace Ker

open Cert.KernelIdeal Cert.KernelIdeal.Facts₀

def row0 (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000
def row1 (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

def srcCol (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

def dstCol (dst : (⟨S800000, .i32⟩ : BufTy).Contents (Elt F)) : (⟨S800000x1, .i32⟩ : BufTy).Contents (Elt F) :=
  broadcastInDim S800000x1 ![0] bcast_S800000_S800000x1_0 dst

/-- max(1, in-degree) as a column. -/
def cntCol (dst : (⟨S800000, .i32⟩ : BufTy).Contents (Elt F)) : (⟨S50000x1, .f32⟩ : BufTy).Contents (Elt F) :=
  broadcastInDim S50000x1 ![0] bcast_S50000_S50000x1_0
    (maximumf
      (Host.scatterAdd scatter_S50000_S800000x1_S800000_n_0_0_1
        (broadcastInDim S50000 ![] bcast_S_S50000 (constant S_ .f32 0x00000000#32))
        (dstCol dst)
        (broadcastInDim S800000 ![] bcast_S_S800000 (constant S_ .f32 0x3F800000#32)))
      (broadcastInDim S50000 ![] bcast_S_S50000 (constant S_ .f32 0x3F800000#32)))

/-- The mean aggregation, as the kernel program's host operations compute it. -/
def agg (feat : (⟨S50000x128, .f32⟩ : BufTy).Contents (Elt F)) (src dst : (⟨S800000, .i32⟩ : BufTy).Contents (Elt F))
    (ea : (⟨S800000, .f32⟩ : BufTy).Contents (Elt F)) : (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (dstCol dst)
      (mulf (Host.gather gather_S50000x128_S800000x1_S800000x128_1_0_n_n_0_1_1128 feat (srcCol src))
        (broadcastInDim S800000x128 ![0, 1] bcast_S800000x1_S800000x128_0_1 (broadcastInDim S800000x1 ![0] bcast_S800000_S800000x1_0 ea))))
    (broadcastInDim S50000x128 ![0, 1] bcast_S50000x1_S50000x128_0_1 (cntCol dst))

end Ker

/-! ## What the two pallas_calls compute, entry by entry, over the extended reals -/

open Idealize.ShloMosaic.ValueIdx in
/-- One entry of a dense layer: Σₖ a(p,k)·u(k,q) + b(0,q) + Σₖ x(p,k)·w(k,q), for an aggregated block a and a block x
    of M rows, weights u, w already transposed to [128, N], and the bias as a row. -/
def denseAt {M N : Nat} (a x : (⟨2, ![M, 128]⟩ : Shape).Idx → EReal) (u : (⟨2, ![128, N]⟩ : Shape).Idx → EReal)
    (b : (⟨2, ![1, N]⟩ : Shape).Idx → EReal) (w : (⟨2, ![128, N]⟩ : Shape).Idx → EReal) (p : Fin M) (q : Fin N) : EReal :=
  ∑ k : Fin 128, a (ix2 p k) * u (ix2 k q) + b (ix2 0 q) + ∑ k : Fin 128, x (ix2 p k) * w (ix2 k q)

/-- ELU on the extended reals: z where z is positive, e^z − 1 elsewhere. -/
abbrev eluE (z : EReal) : EReal := Cert.Lib.Elu.eluE z

namespace Ker

open Cert.KernelIdeal Cert.KernelIdeal.Facts₀

/-- A weight transposed on the host before it is handed to a pallas_call. -/
def tW128 (w : (⟨S128x128, .f32⟩ : BufTy).Contents (Elt F)) : (⟨S128x128, .f32⟩ : BufTy).Contents (Elt F) :=
  transpose S128x128 [1, 0] w transposes_S128x128_S128x128_1_0
def tW64 (w : (⟨S64x128, .f32⟩ : BufTy).Contents (Elt F)) : (⟨S128x64, .f32⟩ : BufTy).Contents (Elt F) :=
  transpose S128x64 [1, 0] w transposes_S64x128_S128x64_1_0
/-- A bias vector re-laid as a row. -/
def bRow128 (b : (⟨S128, .f32⟩ : BufTy).Contents (Elt F)) : (⟨S1x128, .f32⟩ : BufTy).Contents (Elt F) :=
  shapeCast S1x128 b shapeCasts_S128_S1x128
def bRow64 (b : (⟨S64, .f32⟩ : BufTy).Contents (Elt F)) : (⟨S1x64, .f32⟩ : BufTy).Contents (Elt F) :=
  shapeCast S1x64 b shapeCasts_S64_S1x64

/-- The first pallas_call's output array: ELU of the dense layer, entry by entry. -/
def stage1 (mean x : FVec Ideal S50000x128 .f32) (wrelT : FVec Ideal S128x128 .f32) (brow : FVec Ideal S1x128 .f32)
    (wrootT : FVec Ideal S128x128 .f32) : FVec Ideal S50000x128 .f32 :=
  fun i => eluE (denseAt (M := 50000) (N := 128) mean x wrelT brow wrootT (i 0) (i 1))

/-- Either output array of the second pallas_call: the dense layer into 64 features, entry by entry. -/
def stage2 (mean h : FVec Ideal S50000x128 .f32) (wrelT : FVec Ideal S128x64 .f32) (brow : FVec Ideal S1x64 .f32)
    (wrootT : FVec Ideal S128x64 .f32) : FVec Ideal S50000x64 .f32 :=
  fun i => denseAt (M := 50000) (N := 64) mean h wrelT brow wrootT (i 0) (i 1)

/-- The hidden layer as the kernel program computes it. -/
def hidden (x : FVec Ideal S50000x128 .f32) (ei : IVec S2x800000 32) (ea : FVec Ideal S800000 .f32)
    (wrel : FVec Ideal S128x128 .f32) (b : FVec Ideal S128 .f32) (wroot : FVec Ideal S128x128 .f32) : FVec Ideal S50000x128 .f32 :=
  stage1 (agg (F := Ideal) x (row0 (F := Ideal) ei) (row1 (F := Ideal) ei) ea) x (tW128 (F := Ideal) wrel) (bRow128 (F := Ideal) b) (tW128 (F := Ideal) wroot)

/-- An output head over the hidden layer h as the kernel program computes it. -/
def head (h : FVec Ideal S50000x128 .f32) (ei : IVec S2x800000 32) (ea : FVec Ideal S800000 .f32)
    (wrel : FVec Ideal S64x128 .f32) (b : FVec Ideal S64 .f32) (wroot : FVec Ideal S64x128 .f32) : FVec Ideal S50000x64 .f32 :=
  stage2 (agg (F := Ideal) h (row0 (F := Ideal) ei) (row1 (F := Ideal) ei) ea) h (tW64 (F := Ideal) wrel) (bRow64 (F := Ideal) b) (tW64 (F := Ideal) wroot)

end Ker

end Cert.Sage

end
-- ==== Proof.KerHostValues.lean ====
/-
  The arrays the host operations hand to the two pallas_calls, over the extended reals.

  Before the first pallas_call the host operations compute the mean aggregation of the node features over the edge
  table (gather at the sources, weight, add up at the destinations, divide by max(1, in-degree)), transpose the two
  weights and re-lay the bias as a row.  Between the calls they aggregate the first call's result the same way —
  reusing the edge rows and the in-degree column computed before the first call — and transpose and re-lay the two
  heads' weights and biases.  Each lemma reads one such array off the fold of the host operations and states it in
  the named vocabulary; the aggregation is never opened, only recognised.
-/
import proofs.«114850_j36369783063167_1_alg».proof.Proof.Gen.KernelIdeal.Frame
import proofs.«114850_j36369783063167_1_alg».proof.Proof.Spec

set_option maxRecDepth 16384

noncomputable section

namespace Cert.KernelIdeal.HandRun

open Cert.KernelIdeal Cert.KernelIdeal.Gen Cert.Sage
open Idealize.ShloMosaic Idealize.ShloMosaic.TcCoe Idealize.ShloMosaic.Tactic
open Idealize.ShloMosaic.StableHlo (after_cons after_nil)

variable (m : (ℓ : Loc nD τ sig) → Buf (Elt Ideal) ℓ) (ρ : Dev nD → PrngReg) (c : Dev nD)

/-! ## Before the first pallas_call -/

/-- The features go in as launched. -/
theorem V1_main_arg0 : Gen.V1 m ρ c main_arg0 = (m ((c.tc : Thread nD τ).loc main_arg0)) := by
  dsimp only [Gen.V1, Gen.W1, Gen.hostOps0]
  after_results_simp

attribute [local irreducible] Host.scatterAdd Host.gather Host.divf transpose in
/-- The aggregated features. -/
theorem V1_main_v25 : Gen.V1 m ρ c main_v25 = Ker.agg (F := Ideal) (m ((c.tc : Thread nD τ).loc main_arg0)) (Ker.row0 (F := Ideal) (m ((c.tc : Thread nD τ).loc main_arg1))) (Ker.row1 (F := Ideal) (m ((c.tc : Thread nD τ).loc main_arg1))) (m ((c.tc : Thread nD τ).loc main_arg2)) := by
  dsimp only [Gen.V1, Gen.W1, Gen.hostOps0]
  after_results_simp
  rfl

attribute [local irreducible] Host.scatterAdd Host.gather Host.divf transpose in
theorem V1_main_v26 : Gen.V1 m ρ c main_v26 = Ker.tW128 (F := Ideal) (m ((c.tc : Thread nD τ).loc main_arg3)) := by
  dsimp only [Gen.V1, Gen.W1, Gen.hostOps0]
  after_results_simp
  rfl

attribute [local irreducible] Host.scatterAdd Host.gather Host.divf transpose in
theorem V1_main_v27 : Gen.V1 m ρ c main_v27 = Ker.bRow128 (F := Ideal) (m ((c.tc : Thread nD τ).loc main_arg4)) := by
  dsimp only [Gen.V1, Gen.W1, Gen.hostOps0]
  after_results_simp
  rfl

attribute [local irreducible] Host.scatterAdd Host.gather Host.divf transpose in
theorem V1_main_v28 : Gen.V1 m ρ c main_v28 = Ker.tW128 (F := Ideal) (m ((c.tc : Thread nD τ).loc main_arg5)) := by
  dsimp only [Gen.V1, Gen.W1, Gen.hostOps0]
  after_results_simp
  rfl

/-! ## What the second stretch of host operations reuses from the first: the edge rows, the in-degree column, the
    edge weights and the heads' parameters.  The first pallas_call writes none of them. -/

attribute [local irreducible] Host.scatterAdd Host.gather Host.divf transpose in
theorem W2_main_v1 : Gen.W2 m ρ c (Proc.devRef .tc main_v1) = Ker.row0 (F := Ideal) (m ((c.tc : Thread nD τ).loc main_arg1)) :=
  (Gen.W2_of_ne m ρ c main_v1 (by decide)).trans (by
  dsimp only [Gen.W1, Gen.hostOps0]
  after_results_simp
  rfl)

attribute [local irreducible] Host.scatterAdd Host.gather Host.divf transpose in
theorem W2_main_v3 : Gen.W2 m ρ c (Proc.devRef .tc main_v3) = Ker.row1 (F := Ideal) (m ((c.tc : Thread nD τ).loc main_arg1)) :=
  (Gen.W2_of_ne m ρ c main_v3 (by decide)).trans (by
  dsimp only [Gen.W1, Gen.hostOps0]
  after_results_simp
  rfl)

attribute [local irreducible] Host.scatterAdd Host.gather Host.divf transpose in
/-- max(1, in-degree), computed once before the first pallas_call and used by both divisions. -/
theorem W2_main_v10 : Gen.W2 m ρ c (Proc.devRef .tc main_v10) = Ker.cntCol (F := Ideal) (Ker.row1 (F := Ideal) (m ((c.tc : Thread nD τ).loc main_arg1))) :=
  (Gen.W2_of_ne m ρ c main_v10 (by decide)).trans (by
  dsimp only [Gen.W1, Gen.hostOps0]
  after_results_simp
  rfl)

theorem W2_main_arg2 : Gen.W2 m ρ c (Proc.devRef .tc main_arg2) = (m ((c.tc : Thread nD τ).loc main_arg2)) :=
  (Gen.W2_of_ne m ρ c main_arg2 (by decide)).trans (by
  dsimp only [Gen.W1, Gen.hostOps0]
  after_results_simp)

theorem W2_main_arg6 : Gen.W2 m ρ c (Proc.devRef .tc main_arg6) = (m ((c.tc : Thread nD τ).loc main_arg6)) :=
  (Gen.W2_of_ne m ρ c main_arg6 (by decide)).trans (by
  dsimp only [Gen.W1, Gen.hostOps0]
  after_results_simp)

theorem W2_main_arg7 : Gen.W2 m ρ c (Proc.devRef .tc main_arg7) = (m ((c.tc : Thread nD τ).loc main_arg7)) :=
  (Gen.W2_of_ne m ρ c main_arg7 (by decide)).trans (by
  dsimp only [Gen.W1, Gen.hostOps0]
  after_results_simp)

theorem W2_main_arg8 : Gen.W2 m ρ c (Proc.devRef .tc main_arg8) = (m ((c.tc : Thread nD τ).loc main_arg8)) :=
  (Gen.W2_of_ne m ρ c main_arg8 (by decide)).trans (by
  dsimp only [Gen.W1, Gen.hostOps0]
  after_results_simp)

theorem W2_main_arg9 : Gen.W2 m ρ c (Proc.devRef .tc main_arg9) = (m ((c.tc : Thread nD τ).loc main_arg9)) :=
  (Gen.W2_of_ne m ρ c main_arg9 (by decide)).trans (by
  dsimp only [Gen.W1, Gen.hostOps0]
  after_results_simp)

theorem W2_main_arg10 : Gen.W2 m ρ c (Proc.devRef .tc main_arg10) = (m ((c.tc : Thread nD τ).loc main_arg10)) :=
  (Gen.W2_of_ne m ρ c main_arg10 (by decide)).trans (by
  dsimp only [Gen.W1, Gen.hostOps0]
  after_results_simp)

theorem W2_main_arg11 : Gen.W2 m ρ c (Proc.devRef .tc main_arg11) = (m ((c.tc : Thread nD τ).loc main_arg11)) :=
  (Gen.W2_of_ne m ρ c main_arg11 (by decide)).trans (by
  dsimp only [Gen.W1, Gen.hostOps0]
  after_results_simp)

/-! ## Before the second pallas_call -/

/-- The first pallas_call's result goes in as that call left it. -/
theorem V3_main_v29 : Gen.V3 m ρ c main_v29 = (Gen.W2 m ρ c (Proc.devRef .tc main_v29)) := by
  dsimp only [Gen.V3, Gen.W3, Gen.hostOps1]
  after_results_simp

attribute [local irreducible] Host.scatterAdd Host.gather Host.divf transpose in
/-- The aggregated hidden layer. -/
theorem V3_main_v44 : Gen.V3 m ρ c main_v44 = Ker.agg (F := Ideal) (Gen.W2 m ρ c (Proc.devRef .tc main_v29)) (Ker.row0 (F := Ideal) (m ((c.tc : Thread nD τ).loc main_arg1))) (Ker.row1 (F := Ideal) (m ((c.tc : Thread nD τ).loc main_arg1))) (m ((c.tc : Thread nD τ).loc main_arg2)) := by
  dsimp only [Gen.V3, Gen.W3, Gen.hostOps1]
  after_results_simp
  rw [W2_main_v1 m ρ c, W2_main_v3 m ρ c, W2_main_v10 m ρ c, W2_main_arg2 m ρ c]
  rfl

attribute [local irreducible] Host.scatterAdd Host.gather Host.divf transpose in
theorem V3_main_v45 : Gen.V3 m ρ c main_v45 = Ker.tW64 (F := Ideal) (m ((c.tc : Thread nD τ).loc main_arg6)) := by
  dsimp only [Gen.V3, Gen.W3, Gen.hostOps1]
  after_results_simp
  rw [W2_main_arg6 m ρ c]
  rfl

attribute [local irreducible] Host.scatterAdd Host.gather Host.divf transpose in
theorem V3_main_v46 : Gen.V3 m ρ c main_v46 = Ker.bRow64 (F := Ideal) (m ((c.tc : Thread nD τ).loc main_arg7)) := by
  dsimp only [Gen.V3, Gen.W3, Gen.hostOps1]
  after_results_simp
  rw [W2_main_arg7 m ρ c]
  rfl

attribute [local irreducible] Host.scatterAdd Host.gather Host.divf transpose in
theorem V3_main_v47 : Gen.V3 m ρ c main_v47 = Ker.tW64 (F := Ideal) (m ((c.tc : Thread nD τ).loc main_arg8)) := by
  dsimp only [Gen.V3, Gen.W3, Gen.hostOps1]
  after_results_simp
  rw [W2_main_arg8 m ρ c]
  rfl

attribute [local irreducible] Host.scatterAdd Host.gather Host.divf transpose in
theorem V3_main_v48 : Gen.V3 m ρ c main_v48 = Ker.tW64 (F := Ideal) (m ((c.tc : Thread nD τ).loc main_arg9)) := by
  dsimp only [Gen.V3, Gen.W3, Gen.hostOps1]
  after_results_simp
  rw [W2_main_arg9 m ρ c]
  rfl

attribute [local irreducible] Host.scatterAdd Host.gather Host.divf transpose in
theorem V3_main_v49 : Gen.V3 m ρ c main_v49 = Ker.bRow64 (F := Ideal) (m ((c.tc : Thread nD τ).loc main_arg10)) := by
  dsimp only [Gen.V3, Gen.W3, Gen.hostOps1]
  after_results_simp
  rw [W2_main_arg10 m ρ c]
  rfl

attribute [local irreducible] Host.scatterAdd Host.gather Host.divf transpose in
theorem V3_main_v50 : Gen.V3 m ρ c main_v50 = Ker.tW64 (F := Ideal) (m ((c.tc : Thread nD τ).loc main_arg11)) := by
  dsimp only [Gen.V3, Gen.W3, Gen.hostOps1]
  after_results_simp
  rw [W2_main_arg11 m ρ c]
  rfl

end Cert.KernelIdeal.HandRun

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Payload.lean ====
/-
  What each pallas_call's body stores, entry by entry, over the extended reals.

  A body multiplies a block of 5000 rows of the aggregated features and the matching block of the node features by
  two weights already transposed to [128, N], adds the bias row, and (first call only) applies the ELU. Over the
  extended reals the roundings to bf16 are the identity and a matrix product into a zero accumulator is the plain
  sum over the 128 shared positions, so the stored value at (p, q) is the dense layer's entry; the ELU's select on
  z > 0 between z and e^z − 1 is the function eluE.
-/
import proofs.«114850_j36369783063167_1_alg».proof.Proof.Spec
import proofs.«114850_j36369783063167_1_alg».proof.Proof.LibPlainDot
import proofs.«114850_j36369783063167_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section
namespace Cert.Sage.Ker
open Idealize.ShloMosaic Idealize.ShloMosaic.ValueIdx Cert.KernelIdeal Cert.KernelIdeal.Gen

/-- A block times a weight: the roundings to bf16 on the way in are the identity, and the product into zeros is the sum
    over the 128 shared positions. -/
theorem blockDot {N : Nat}
    (wf : DotDims.WF ⟨2, ![5000, 128]⟩ ⟨2, ![128, N]⟩ ⟨2, ![5000, N]⟩ [1] [0] [0] [1] [] [])
    (a : FVec Ideal ⟨2, ![5000, 128]⟩ .f32) (u : FVec Ideal ⟨2, ![128, N]⟩ .f32)
    (hb : FTy.bf16.bits < FTy.f32.bits) (p : Fin 5000) (q : Fin N) :
    matmul (Cert.Lib.plainDot 5000 128 N wf) none (truncf .bf16 a hb) (truncf .bf16 u hb)
        (constant (F := Ideal) ⟨2, ![5000, N]⟩ .f32 0x00000000#32) (ix2 p q)
      = ∑ k : Fin 128, a (ix2 p k) * u (ix2 k q) :=
  Cert.Lib.matmul_zero_apply wf none _ _ p q

theorem pay3_apply (v0 v3 : Vec Ideal S5000x128 .f32) (v6 v9 : Vec Ideal S128x64 .f32) (v19 : Vec Ideal S1x64 .f32)
    (p : Fin 5000) (q : Fin 64) :
    k1_pay3 (F := Ideal) v0 v3 v6 v9 v19 (ix2 p q) = denseAt (M := 5000) (N := 64) v0 v3 v6 v19 v9 p q := by
  unfold k1_pay3 k1_pay1 k1_pay2 denseAt
  simp only [shapeCast_self]
  rw [addf_apply, addf_apply]
  exact congrArg₂ (· + ·) (congrArg₂ (· + ·) (blockDot _ v0 v6 _ p q) (broadcastTo_1b_ab_apply v19 _ p q)) (blockDot _ v3 v9 _ p q)

theorem pay4_apply (v0 v3 : Vec Ideal S5000x128 .f32) (v12 v15 : Vec Ideal S128x64 .f32) (v26 : Vec Ideal S1x64 .f32)
    (p : Fin 5000) (q : Fin 64) :
    k1_pay4 (F := Ideal) v0 v3 v12 v15 v26 (ix2 p q) = denseAt (M := 5000) (N := 64) v0 v3 v12 v26 v15 p q := by
  unfold k1_pay4 k1_pay1 k1_pay2 denseAt
  simp only [shapeCast_self]
  rw [addf_apply, addf_apply]
  exact congrArg₂ (· + ·) (congrArg₂ (· + ·) (blockDot _ v0 v12 _ p q) (broadcastTo_1b_ab_apply v26 _ p q)) (blockDot _ v3 v15 _ p q)

theorem pay1_apply (v0 v3 : Vec Ideal S5000x128 .f32) (v5 v8 : Vec Ideal S128x128 .f32) (v12 : Vec Ideal S1x128 .f32)
    (p : Fin 5000) (q : Fin 128) :
    k0_pay1 (F := Ideal) v0 v3 v5 v8 v12 (ix2 p q) = eluE (denseAt (M := 5000) (N := 128) v0 v3 v5 v12 v8 p q) := by
  unfold k0_pay1 denseAt
  simp only [shapeCast_self]
  refine (Cert.Lib.Elu.kernelElu_apply _ (ix2 p q)).trans (congrArg eluE ?_)
  rw [addf_apply, addf_apply]
  exact congrArg₂ (· + ·) (congrArg₂ (· + ·) (blockDot _ v0 v5 _ p q) (broadcastTo_1b_ab_apply v12 _ p q)) (blockDot _ v3 v8 _ p q)

end Cert.Sage.Ker
end
-- ==== Proof.KerRegion0.lean ====
/-
  From blocks to arrays, first pallas_call, over the extended reals, for any region-entry contents V.

  The grid has 10 points. Point t handles rows 5000·t … 5000·t + 4999 of the aggregated features, of the node
  features and of the output; the two transposed weights and the bias row are whole at every point. The body
  stores, at (p, q) of its block, ELU of the dense layer's entry computed from row p of the two row blocks. Row p
  of a row block at point t is row 5000·t + p of its array, so the stored value is entry (5000·t + p, q) of the
  first stage's array 'Ker.stage1' of the five input arrays. Every row r lies in the block of point r / 5000, so
  the write-backs cover the output array, which therefore ends holding 'Ker.stage1' of the inputs.
-/
import proofs.«114850_j36369783063167_1_alg».proof.Proof.Gen.KernelIdeal.Frame
import proofs.«114850_j36369783063167_1_alg».proof.Proof.Spec
import proofs.«114850_j36369783063167_1_alg».proof.Proof.Payload
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.HandRegions

open Cert.KernelIdeal Cert.KernelIdeal.Gen Cert.Sage

/- The TensorCore's buffer contents when the region is entered: everything below holds for any such contents. -/
variable (V : (c : Dev nD) → (b : Ref sig .tc) → Buf (Elt Ideal) ((c : Thread nD τ).loc b))

theorem zero_offsets : (![0, 0] : Fin 2 → Nat) = fun _ => 0 := funext fun a => by fin_cases a <;> rfl

theorem grid_points0 : cfg0.N = 10 := N_0

/-- The printed index maps over the grid: the three row-blocked windows sit at block (t, 0), the weights and the bias at block (0, 0). -/
theorem index_maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem row_in_range0 (t : Fin cfg0.N) (p : Fin 5000) : 5000 * t.val + p.val < 50000 := by
  have ht : t.val < 10 := lt_of_lt_of_eq t.isLt grid_points0
  have hp := p.isLt
  omega

/-- The aggregated features' block at point t is rows 5000·t … 5000·t + 4999 of the array. -/
theorem mean_block_read0 (c : Dev nD) (t : Fin cfg0.N) (p : Fin 5000) (k : Fin 128) :
    (iblk0 V c 0 t : Vec Ideal S5000x128 .f32) (ix2 p k)
      = (V c main_v25 : S50000x128.Idx → EReal) (ix2 ⟨5000 * t.val + p.val, row_in_range0 t p⟩ k) := by
  obtain ⟨e0, e1, -⟩ := index_maps0 t
  show V c main_v25 (((cfg0.win 0).blk t).view.emb (ix2 p k)) = V c main_v25 _
  congr 1
  funext a; apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The node features' block at point t is the same rows of their array. -/
theorem feat_block_read0 (c : Dev nD) (t : Fin cfg0.N) (p : Fin 5000) (k : Fin 128) :
    (iblk0 V c 1 t : Vec Ideal S5000x128 .f32) (ix2 p k)
      = (V c main_arg0 : S50000x128.Idx → EReal) (ix2 ⟨5000 * t.val + p.val, row_in_range0 t p⟩ k) := by
  obtain ⟨-, -, e0, e1, -⟩ := index_maps0 t
  show V c main_arg0 (((cfg0.win 1).blk t).view.emb (ix2 p k)) = V c main_arg0 _
  congr 1
  funext a; apply Fin.ext
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- The first weight's block is the whole weight at every point. -/
theorem wrel_block_read0 (c : Dev nD) (t : Fin cfg0.N) (k q : Fin 128) :
    (iblk0 V c 2 t : Vec Ideal S128x128 .f32) (ix2 k q) = (V c main_v26 : S128x128.Idx → EReal) (ix2 k q) := by
  obtain ⟨-, -, -, -, e0, e1, -⟩ := index_maps0 t
  show V c main_v26 (((cfg0.win 2).blk t).view.emb (ix2 k q)) = V c main_v26 _
  congr 1
  funext a; apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The bias row's block is the whole row at every point. -/
theorem bias_block_read0 (c : Dev nD) (t : Fin cfg0.N) (z : Fin 1) (q : Fin 128) :
    (iblk0 V c 3 t : Vec Ideal S1x128 .f32) (ix2 z q) = (V c main_v27 : S1x128.Idx → EReal) (ix2 z q) := by
  obtain ⟨-, -, -, -, -, -, e0, e1, -⟩ := index_maps0 t
  show V c main_v27 (((cfg0.win 3).blk t).view.emb (ix2 z q)) = V c main_v27 _
  congr 1
  funext a; apply Fin.ext
  match a with
  | ⟨0, _⟩ => show win0_3.index t (0 : Fin 2) * 1 + 1 * z.val = z.val; rw [e0]; omega
  | ⟨1, _⟩ => show win0_3.index t (1 : Fin 2) * 128 + 1 * q.val = q.val; rw [e1]; omega

/-- The second weight's block is the whole weight at every point. -/
theorem wroot_block_read0 (c : Dev nD) (t : Fin cfg0.N) (k q : Fin 128) :
    (iblk0 V c 4 t : Vec Ideal S128x128 .f32) (ix2 k q) = (V c main_v28 : S128x128.Idx → EReal) (ix2 k q) := by
  obtain ⟨-, -, -, -, -, -, -, -, e0, e1, -⟩ := index_maps0 t
  show V c main_v28 (((cfg0.win 4).blk t).view.emb (ix2 k q)) = V c main_v28 _
  congr 1
  funext a; apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- Entry (p, q) of the output's block at point t is entry (5000·t + p, q) of the array. -/
theorem out_block_index0 (t : Fin cfg0.N) (p : Fin 5000) (q : Fin 128) :
    ((cfg0.win 5).blk t).view.emb (ix2 p q) = (ix2 ⟨5000 * t.val + p.val, row_in_range0 t p⟩ q : S50000x128.Idx) := by
  obtain ⟨-, -, -, -, -, -, -, -, -, -, e0, e1⟩ := index_maps0 t
  funext a; apply Fin.ext
  match a with
  | ⟨0, _⟩ => show win0_5.index t (0 : Fin 2) * 5000 + 1 * p.val = 5000 * t.val + p.val; rw [e0]; omega
  | ⟨1, _⟩ => show win0_5.index t (1 : Fin 2) * 128 + 1 * q.val = q.val; rw [e1]; omega

/-- The stored value at (p, q) of a block is the first stage's entry at (r, q) of the arrays, once row p of the two
    row blocks is row r of their arrays and the weight and bias blocks are the whole arrays. -/
theorem stage1_of_blocks (mean x : FVec Ideal S50000x128 .f32) (u : FVec Ideal S128x128 .f32) (b : FVec Ideal S1x128 .f32)
    (w : FVec Ideal S128x128 .f32) (x0 x1 : Vec Ideal S5000x128 .f32) (x2 x4 : Vec Ideal S128x128 .f32) (x3 : Vec Ideal S1x128 .f32)
    (p : Fin 5000) (q : Fin 128) (r : Fin 50000)
    (h0 : ∀ k : Fin 128, x0 (ix2 p k) = mean (ix2 r k))
    (h1 : ∀ k : Fin 128, x1 (ix2 p k) = x (ix2 r k))
    (h2 : ∀ k : Fin 128, x2 (ix2 k q) = u (ix2 k q))
    (h3 : x3 (ix2 0 q) = b (ix2 0 q))
    (h4 : ∀ k : Fin 128, x4 (ix2 k q) = w (ix2 k q)) :
    k0_pay1 (F := Ideal) x0 x1 x2 x4 x3 (ix2 p q) = Ker.stage1 mean x u b w (ix2 r q) := by
  rw [Ker.pay1_apply]
  show eluE (denseAt (M := 5000) (N := 128) x0 x1 x2 x3 x4 p q) = eluE (denseAt (M := 50000) (N := 128) mean x u b w r q)
  unfold denseAt
  have s0 : ∑ k : Fin 128, x0 (ix2 p k) * x2 (ix2 k q) = ∑ k : Fin 128, mean (ix2 r k) * u (ix2 k q) :=
    Finset.sum_congr rfl (fun k _ => by rw [h0 k, h2 k])
  have s1 : ∑ k : Fin 128, x1 (ix2 p k) * x4 (ix2 k q) = ∑ k : Fin 128, x (ix2 r k) * w (ix2 k q) :=
    Finset.sum_congr rfl (fun k _ => by rw [h1 k, h4 k])
  rw [s0, s1, h3]

/-- What point t writes back is block t of the first stage's array over the region-entry contents. -/
theorem flushed0_eq (c : Dev nD) (t : Fin cfg0.N) :
    (dat0 V c).flushed 5 t = ((cfg0.win 5).blk t).view.read (Elt Ideal)
      (Ker.stage1 (V c main_v25) (V c main_arg0) (V c main_v26) (V c main_v27) (V c main_v28)) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets, View.ld_unit_zero (S := S1x128) zero_offsets]
  funext y
  obtain ⟨p, q, rfl⟩ : ∃ (p : Fin 5000) (q : Fin 128), y = ix2 p q := ⟨y 0, y 1, eq_ix2 y⟩
  show k0_pay1 (F := Ideal) (iblk0 V c 0 t) (iblk0 V c 1 t) (iblk0 V c 2 t) (iblk0 V c 4 t) (iblk0 V c 3 t) (ix2 p q)
    = Ker.stage1 (V c main_v25) (V c main_arg0) (V c main_v26) (V c main_v27) (V c main_v28) (((cfg0.win 5).blk t).view.emb (ix2 p q))
  rw [out_block_index0 t p q]
  exact stage1_of_blocks _ _ _ _ _ _ _ _ _ _ p q ⟨5000 * t.val + p.val, row_in_range0 t p⟩
    (fun k => mean_block_read0 V c t p k) (fun k => feat_block_read0 V c t p k) (fun k => wrel_block_read0 V c t k q)
    (bias_block_read0 V c t 0 q) (fun k => wroot_block_read0 V c t k q)

/-- An index of the output array is in point t's block iff each coordinate is in the block's range on its axis. -/
theorem mem_out_block0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v29).slice (win0_5.rect t)).set ↔ _
  rw [View.set_slice_whole, Rect.mem_set_unit]
  exact Iff.rfl

/-- Row r of the output array is written back by point r / 5000. -/
theorem out_covered0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 5000 < cfg0.N := by rw [grid_points0]; omega
  obtain ⟨-, -, -, -, -, -, -, -, -, -, e0, e1⟩ := index_maps0 ⟨(i 0).val / 5000, ht⟩
  refine ⟨⟨(i 0).val / 5000, ht⟩, flush0_5 _, ?_⟩
  rw [mem_out_block0]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]; omega

/-- THE FIRST pallas_call's output array after the region: the first stage over the region-entry contents. -/
theorem region0 (c : Dev nD) :
    (dat0 V c).arrAt 5 cfg0.N = Ker.stage1 (V c main_v25) (V c main_arg0) (V c main_v26) (V c main_v27) (V c main_v28) :=
  (dat0 V c).arrAt_eq_of_cover 5 (Ker.stage1 (V c main_v25) (V c main_arg0) (V c main_v26) (V c main_v27) (V c main_v28))
    (fun t _ => flushed0_eq V c t) out_covered0

end Cert.KernelIdeal.HandRegions

end
-- ==== Proof.KerRegion1.lean ====
/-
  From blocks to arrays, second pallas_call, over the extended reals, for any region-entry contents V.

  The grid has 10 points. Point t handles rows 5000·t … 5000·t + 4999 of the aggregated features, of the hidden
  layer and of the two outputs; the four transposed weights and the two bias rows are whole at every point. The
  body stores, at (p, q) of each output's block, the dense layer's entry computed from row p of the two row blocks
  with that head's weights and bias. Row p of a row block at point t is row 5000·t + p of its array, so the stored
  value is entry (5000·t + p, q) of the second stage's array 'Ker.stage2' of the head's five input arrays. Every
  row r lies in the block of point r / 5000, so the write-backs cover each output array, which therefore ends
  holding 'Ker.stage2' of its inputs.
-/
import proofs.«114850_j36369783063167_1_alg».proof.Proof.Gen.KernelIdeal.Frame
import proofs.«114850_j36369783063167_1_alg».proof.Proof.Spec
import proofs.«114850_j36369783063167_1_alg».proof.Proof.Payload
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.HandRegions

open Cert.KernelIdeal Cert.KernelIdeal.Gen Cert.Sage

/- The TensorCore's buffer contents when the region is entered: everything below holds for any such contents. -/
variable (V : (c : Dev nD) → (b : Ref sig .tc) → Buf (Elt Ideal) ((c : Thread nD τ).loc b))

theorem zero_offsets1 : (![0, 0] : Fin 2 → Nat) = fun _ => 0 := funext fun a => by fin_cases a <;> rfl

theorem grid_points1 : cfg1.N = 10 := N_1

/-! ## The printed index maps over the grid: a row-blocked window sits at block (t, 0), a weight or a bias at block (0, 0) -/
theorem index_map1_0 : ∀ t : Fin cfg1.N, win1_0.index t (0 : Fin 2) = t.val ∧ win1_0.index t (1 : Fin 2) = 0 :=
  (by decide +kernel : ∀ t : Fin grid1.N, _)
theorem index_map1_1 : ∀ t : Fin cfg1.N, win1_1.index t (0 : Fin 2) = t.val ∧ win1_1.index t (1 : Fin 2) = 0 :=
  (by decide +kernel : ∀ t : Fin grid1.N, _)
theorem index_map1_2 : ∀ t : Fin cfg1.N, win1_2.index t (0 : Fin 2) = 0 ∧ win1_2.index t (1 : Fin 2) = 0 :=
  (by decide +kernel : ∀ t : Fin grid1.N, _)
theorem index_map1_3 : ∀ t : Fin cfg1.N, win1_3.index t (0 : Fin 2) = 0 ∧ win1_3.index t (1 : Fin 2) = 0 :=
  (by decide +kernel : ∀ t : Fin grid1.N, _)
theorem index_map1_4 : ∀ t : Fin cfg1.N, win1_4.index t (0 : Fin 2) = 0 ∧ win1_4.index t (1 : Fin 2) = 0 :=
  (by decide +kernel : ∀ t : Fin grid1.N, _)
theorem index_map1_5 : ∀ t : Fin cfg1.N, win1_5.index t (0 : Fin 2) = 0 ∧ win1_5.index t (1 : Fin 2) = 0 :=
  (by decide +kernel : ∀ t : Fin grid1.N, _)
theorem index_map1_6 : ∀ t : Fin cfg1.N, win1_6.index t (0 : Fin 2) = 0 ∧ win1_6.index t (1 : Fin 2) = 0 :=
  (by decide +kernel : ∀ t : Fin grid1.N, _)
theorem index_map1_7 : ∀ t : Fin cfg1.N, win1_7.index t (0 : Fin 2) = 0 ∧ win1_7.index t (1 : Fin 2) = 0 :=
  (by decide +kernel : ∀ t : Fin grid1.N, _)
theorem index_map1_8 : ∀ t : Fin cfg1.N, win1_8.index t (0 : Fin 2) = t.val ∧ win1_8.index t (1 : Fin 2) = 0 :=
  (by decide +kernel : ∀ t : Fin grid1.N, _)
theorem index_map1_9 : ∀ t : Fin cfg1.N, win1_9.index t (0 : Fin 2) = t.val ∧ win1_9.index t (1 : Fin 2) = 0 :=
  (by decide +kernel : ∀ t : Fin grid1.N, _)

theorem row_in_range1 (t : Fin cfg1.N) (p : Fin 5000) : 5000 * t.val + p.val < 50000 := by
  have ht : t.val < 10 := lt_of_lt_of_eq t.isLt grid_points1
  have hp := p.isLt
  omega

/-! ## Each input block read off its array -/

/-- The aggregated features' block at point t is rows 5000·t … 5000·t + 4999 of the array. -/
theorem mean_block_read1 (c : Dev nD) (t : Fin cfg1.N) (p : Fin 5000) (k : Fin 128) :
    (iblk1 V c 0 t : Vec Ideal S5000x128 .f32) (ix2 p k)
      = (V c main_v44 : S50000x128.Idx → EReal) (ix2 ⟨5000 * t.val + p.val, row_in_range1 t p⟩ k) := by
  obtain ⟨e0, e1⟩ := index_map1_0 t
  show V c main_v44 (((cfg1.win 0).blk t).view.emb (ix2 p k)) = V c main_v44 _
  congr 1
  funext a; apply Fin.ext
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- The hidden layer's block at point t is the same rows of its array. -/
theorem hidden_block_read1 (c : Dev nD) (t : Fin cfg1.N) (p : Fin 5000) (k : Fin 128) :
    (iblk1 V c 1 t : Vec Ideal S5000x128 .f32) (ix2 p k)
      = (V c main_v29 : S50000x128.Idx → EReal) (ix2 ⟨5000 * t.val + p.val, row_in_range1 t p⟩ k) := by
  obtain ⟨e0, e1⟩ := index_map1_1 t
  show V c main_v29 (((cfg1.win 1).blk t).view.emb (ix2 p k)) = V c main_v29 _
  congr 1
  funext a; apply Fin.ext
  match a with
  | ⟨0, _⟩ => show win1_1.index t (0 : Fin 2) * 5000 + 1 * p.val = 5000 * t.val + p.val; rw [e0]; omega
  | ⟨1, _⟩ => show win1_1.index t (1 : Fin 2) * 128 + 1 * k.val = k.val; rw [e1]; omega

/-- The first head's first weight: its block is the whole weight at every point. -/
theorem wrel_mu_block_read1 (c : Dev nD) (t : Fin cfg1.N) (k : Fin 128) (q : Fin 64) :
    (iblk1 V c 2 t : Vec Ideal S128x64 .f32) (ix2 k q) = (V c main_v45 : S128x64.Idx → EReal) (ix2 k q) := by
  obtain ⟨e0, e1⟩ := index_map1_2 t
  show V c main_v45 (((cfg1.win 2).blk t).view.emb (ix2 k q)) = V c main_v45 _
  congr 1
  funext a; apply Fin.ext
  match a with
  | ⟨0, _⟩ => show win1_2.index t (0 : Fin 2) * 128 + 1 * k.val = k.val; rw [e0]; omega
  | ⟨1, _⟩ => show win1_2.index t (1 : Fin 2) * 64 + 1 * q.val = q.val; rw [e1]; omega

/-- The first head's bias row: its block is the whole row at every point. -/
theorem bias_mu_block_read1 (c : Dev nD) (t : Fin cfg1.N) (k : Fin 1) (q : Fin 64) :
    (iblk1 V c 3 t : Vec Ideal S1x64 .f32) (ix2 k q) = (V c main_v46 : S1x64.Idx → EReal) (ix2 k q) := by
  obtain ⟨e0, e1⟩ := index_map1_3 t
  show V c main_v46 (((cfg1.win 3).blk t).view.emb (ix2 k q)) = V c main_v46 _
  congr 1
  funext a; apply Fin.ext
  match a with
  | ⟨0, _⟩ => show win1_3.index t (0 : Fin 2) * 1 + 1 * k.val = k.val; rw [e0]; omega
  | ⟨1, _⟩ => show win1_3.index t (1 : Fin 2) * 64 + 1 * q.val = q.val; rw [e1]; omega

/-- The first head's second weight: its block is the whole weight at every point. -/
theorem wroot_mu_block_read1 (c : Dev nD) (t : Fin cfg1.N) (k : Fin 128) (q : Fin 64) :
    (iblk1 V c 4 t : Vec Ideal S128x64 .f32) (ix2 k q) = (V c main_v47 : S128x64.Idx → EReal) (ix2 k q) := by
  obtain ⟨e0, e1⟩ := index_map1_4 t
  show V c main_v47 (((cfg1.win 4).blk t).view.emb (ix2 k q)) = V c main_v47 _
  congr 1
  funext a; apply Fin.ext
  match a with
  | ⟨0, _⟩ => show win1_4.index t (0 : Fin 2) * 128 + 1 * k.val = k.val; rw [e0]; omega
  | ⟨1, _⟩ => show win1_4.index t (1 : Fin 2) * 64 + 1 * q.val = q.val; rw [e1]; omega

/-- The second head's first weight: its block is the whole weight at every point. -/
theorem wrel_lv_block_read1 (c : Dev nD) (t : Fin cfg1.N) (k : Fin 128) (q : Fin 64) :
    (iblk1 V c 5 t : Vec Ideal S128x64 .f32) (ix2 k q) = (V c main_v48 : S128x64.Idx → EReal) (ix2 k q) := by
  obtain ⟨e0, e1⟩ := index_map1_5 t
  show V c main_v48 (((cfg1.win 5).blk t).view.emb (ix2 k q)) = V c main_v48 _
  congr 1
  funext a; apply Fin.ext
  match a with
  | ⟨0, _⟩ => show win1_5.index t (0 : Fin 2) * 128 + 1 * k.val = k.val; rw [e0]; omega
  | ⟨1, _⟩ => show win1_5.index t (1 : Fin 2) * 64 + 1 * q.val = q.val; rw [e1]; omega

/-- The second head's bias row: its block is the whole row at every point. -/
theorem bias_lv_block_read1 (c : Dev nD) (t : Fin cfg1.N) (k : Fin 1) (q : Fin 64) :
    (iblk1 V c 6 t : Vec Ideal S1x64 .f32) (ix2 k q) = (V c main_v49 : S1x64.Idx → EReal) (ix2 k q) := by
  obtain ⟨e0, e1⟩ := index_map1_6 t
  show V c main_v49 (((cfg1.win 6).blk t).view.emb (ix2 k q)) = V c main_v49 _
  congr 1
  funext a; apply Fin.ext
  match a with
  | ⟨0, _⟩ => show win1_6.index t (0 : Fin 2) * 1 + 1 * k.val = k.val; rw [e0]; omega
  | ⟨1, _⟩ => show win1_6.index t (1 : Fin 2) * 64 + 1 * q.val = q.val; rw [e1]; omega

/-- The second head's second weight: its block is the whole weight at every point. -/
theorem wroot_lv_block_read1 (c : Dev nD) (t : Fin cfg1.N) (k : Fin 128) (q : Fin 64) :
    (iblk1 V c 7 t : Vec Ideal S128x64 .f32) (ix2 k q) = (V c main_v50 : S128x64.Idx → EReal) (ix2 k q) := by
  obtain ⟨e0, e1⟩ := index_map1_7 t
  show V c main_v50 (((cfg1.win 7).blk t).view.emb (ix2 k q)) = V c main_v50 _
  congr 1
  funext a; apply Fin.ext
  match a with
  | ⟨0, _⟩ => show win1_7.index t (0 : Fin 2) * 128 + 1 * k.val = k.val; rw [e0]; omega
  | ⟨1, _⟩ => show win1_7.index t (1 : Fin 2) * 64 + 1 * q.val = q.val; rw [e1]; omega

/-! ## The stored value at an entry of a block, over the arrays -/

/-- The first head's stored value at (p, q) of a block is the second stage's entry at (r, q) of the arrays, once row p of
    the two row blocks is row r of their arrays and the weight and bias blocks are the whole arrays. -/
theorem stage2_mu_of_blocks (mean x : FVec Ideal S50000x128 .f32) (u : FVec Ideal S128x64 .f32) (b : FVec Ideal S1x64 .f32)
    (w : FVec Ideal S128x64 .f32) (x0 x1 : Vec Ideal S5000x128 .f32) (x2 x4 : Vec Ideal S128x64 .f32) (x3 : Vec Ideal S1x64 .f32)
    (p : Fin 5000) (q : Fin 64) (r : Fin 50000)
    (h0 : ∀ k : Fin 128, x0 (ix2 p k) = mean (ix2 r k))
    (h1 : ∀ k : Fin 128, x1 (ix2 p k) = x (ix2 r k))
    (h2 : ∀ k : Fin 128, x2 (ix2 k q) = u (ix2 k q))
    (h3 : x3 (ix2 0 q) = b (ix2 0 q))
    (h4 : ∀ k : Fin 128, x4 (ix2 k q) = w (ix2 k q)) :
    k1_pay3 (F := Ideal) x0 x1 x2 x4 x3 (ix2 p q) = Ker.stage2 mean x u b w (ix2 r q) := by
  rw [Ker.pay3_apply]
  show denseAt (M := 5000) (N := 64) x0 x1 x2 x3 x4 p q = denseAt (M := 50000) (N := 64) mean x u b w r q
  unfold denseAt
  have s0 : ∑ k : Fin 128, x0 (ix2 p k) * x2 (ix2 k q) = ∑ k : Fin 128, mean (ix2 r k) * u (ix2 k q) :=
    Finset.sum_congr rfl (fun k _ => by rw [h0 k, h2 k])
  have s1 : ∑ k : Fin 128, x1 (ix2 p k) * x4 (ix2 k q) = ∑ k : Fin 128, x (ix2 r k) * w (ix2 k q) :=
    Finset.sum_congr rfl (fun k _ => by rw [h1 k, h4 k])
  rw [s0, s1, h3]

/-- The second head's stored value at (p, q) of a block is the second stage's entry at (r, q) of the arrays, once row p of
    the two row blocks is row r of their arrays and the weight and bias blocks are the whole arrays. -/
theorem stage2_lv_of_blocks (mean x : FVec Ideal S50000x128 .f32) (u : FVec Ideal S128x64 .f32) (b : FVec Ideal S1x64 .f32)
    (w : FVec Ideal S128x64 .f32) (x0 x1 : Vec Ideal S5000x128 .f32) (x2 x4 : Vec Ideal S128x64 .f32) (x3 : Vec Ideal S1x64 .f32)
    (p : Fin 5000) (q : Fin 64) (r : Fin 50000)
    (h0 : ∀ k : Fin 128, x0 (ix2 p k) = mean (ix2 r k))
    (h1 : ∀ k : Fin 128, x1 (ix2 p k) = x (ix2 r k))
    (h2 : ∀ k : Fin 128, x2 (ix2 k q) = u (ix2 k q))
    (h3 : x3 (ix2 0 q) = b (ix2 0 q))
    (h4 : ∀ k : Fin 128, x4 (ix2 k q) = w (ix2 k q)) :
    k1_pay4 (F := Ideal) x0 x1 x2 x4 x3 (ix2 p q) = Ker.stage2 mean x u b w (ix2 r q) := by
  rw [Ker.pay4_apply]
  show denseAt (M := 5000) (N := 64) x0 x1 x2 x3 x4 p q = denseAt (M := 50000) (N := 64) mean x u b w r q
  unfold denseAt
  have s0 : ∑ k : Fin 128, x0 (ix2 p k) * x2 (ix2 k q) = ∑ k : Fin 128, mean (ix2 r k) * u (ix2 k q) :=
    Finset.sum_congr rfl (fun k _ => by rw [h0 k, h2 k])
  have s1 : ∑ k : Fin 128, x1 (ix2 p k) * x4 (ix2 k q) = ∑ k : Fin 128, x (ix2 r k) * w (ix2 k q) :=
    Finset.sum_congr rfl (fun k _ => by rw [h1 k, h4 k])
  rw [s0, s1, h3]

/-! ## The first head's output -/

/-- Entry (p, q) of the first output's block at point t is entry (5000·t + p, q) of the array. -/
theorem out_mu_block_index1 (t : Fin cfg1.N) (p : Fin 5000) (q : Fin 64) :
    ((cfg1.win 8).blk t).view.emb (ix2 p q) = (ix2 ⟨5000 * t.val + p.val, row_in_range1 t p⟩ q : S50000x64.Idx) := by
  obtain ⟨e0, e1⟩ := index_map1_8 t
  funext a; apply Fin.ext
  match a with
  | ⟨0, _⟩ => show win1_8.index t (0 : Fin 2) * 5000 + 1 * p.val = 5000 * t.val + p.val; rw [e0]; omega
  | ⟨1, _⟩ => show win1_8.index t (1 : Fin 2) * 64 + 1 * q.val = q.val; rw [e1]; omega

/-- What point t writes back to the first output is block t of the second stage's array over the region-entry contents. -/
theorem flushed1_mu_eq (c : Dev nD) (t : Fin cfg1.N) :
    (dat1 V c).flushed 8 t = ((cfg1.win 8).blk t).view.read (Elt Ideal)
      (Ker.stage2 (V c main_v44) (V c main_v29) (V c main_v45) (V c main_v46) (V c main_v47)) := by
  show (cfg1.win 8).cut (grid1.coords t) ((dat1 V c).after 8 t) = _
  rw [after1_8]
  unfold out1_8
  rw [View.canon_unit_zero zero_offsets1]
  simp only [View.ld_unit_zero (S := S5000x128) zero_offsets1, View.ld_unit_zero (S := S128x64) zero_offsets1, View.ld_unit_zero (S := S1x64) zero_offsets1]
  funext y
  obtain ⟨p, q, rfl⟩ : ∃ (p : Fin 5000) (q : Fin 64), y = ix2 p q := ⟨y 0, y 1, eq_ix2 y⟩
  show k1_pay3 (F := Ideal) (iblk1 V c 0 t) (iblk1 V c 1 t) (iblk1 V c 2 t) (iblk1 V c 4 t) (iblk1 V c 3 t) (ix2 p q)
    = Ker.stage2 (V c main_v44) (V c main_v29) (V c main_v45) (V c main_v46) (V c main_v47) (((cfg1.win 8).blk t).view.emb (ix2 p q))
  rw [out_mu_block_index1 t p q]
  exact stage2_mu_of_blocks _ _ _ _ _ _ _ _ _ _ p q ⟨5000 * t.val + p.val, row_in_range1 t p⟩
    (fun k => mean_block_read1 V c t p k) (fun k => hidden_block_read1 V c t p k) (fun k => wrel_mu_block_read1 V c t k q)
    (bias_mu_block_read1 V c t 0 q) (fun k => wroot_mu_block_read1 V c t k q)

/-- An index of the first output array is in point t's block iff each coordinate is in the block's range on its axis. -/
theorem mem_out_mu_block1 (t : Fin cfg1.N) (i : S50000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v51_0).slice (win1_8.rect t)).set ↔ _
  rw [View.set_slice_whole, Rect.mem_set_unit]
  exact Iff.rfl

/-- Row r of the first output array is written back by point r / 5000. -/
theorem out_mu_covered1 (i : S50000x64.Idx) :
    ∃ t : Fin cfg1.N, (cfg1.win 8).flush t = true ∧ i ∈ ((cfg1.win 8).blk t).view.set := by
  have hi0 : (i 0).val < 50000 := (i 0).isLt
  have hi1 : (i 1).val < 64 := (i 1).isLt
  have ht : (i 0).val / 5000 < cfg1.N := by rw [grid_points1]; omega
  obtain ⟨e0, e1⟩ := index_map1_8 ⟨(i 0).val / 5000, ht⟩
  refine ⟨⟨(i 0).val / 5000, ht⟩, flush1_8 _, ?_⟩
  rw [mem_out_mu_block1]
  intro a
  match a with
  | ⟨0, _⟩ =>
    show win1_8.index ⟨(i 0).val / 5000, ht⟩ (0 : Fin 2) * 5000 ≤ (i 0).val ∧ (i 0).val < win1_8.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_8.index ⟨(i 0).val / 5000, ht⟩ (1 : Fin 2) * 64 ≤ (i 1).val ∧ (i 1).val < win1_8.index ⟨(i 0).val / 5000, ht⟩ (1 : Fin 2) * 64 + 64
    rw [e1]; omega

/-- THE SECOND pallas_call's first output array after the region: the second stage over the region-entry contents. -/
theorem region1_mu (c : Dev nD) :
    (dat1 V c).arrAt 8 cfg1.N = Ker.stage2 (V c main_v44) (V c main_v29) (V c main_v45) (V c main_v46) (V c main_v47) :=
  (dat1 V c).arrAt_eq_of_cover 8 (Ker.stage2 (V c main_v44) (V c main_v29) (V c main_v45) (V c main_v46) (V c main_v47))
    (fun t _ => flushed1_mu_eq V c t) out_mu_covered1

/-! ## The second head's output -/

/-- Entry (p, q) of the second output's block at point t is entry (5000·t + p, q) of the array. -/
theorem out_lv_block_index1 (t : Fin cfg1.N) (p : Fin 5000) (q : Fin 64) :
    ((cfg1.win 9).blk t).view.emb (ix2 p q) = (ix2 ⟨5000 * t.val + p.val, row_in_range1 t p⟩ q : S50000x64.Idx) := by
  obtain ⟨e0, e1⟩ := index_map1_9 t
  funext a; apply Fin.ext
  match a with
  | ⟨0, _⟩ => show win1_9.index t (0 : Fin 2) * 5000 + 1 * p.val = 5000 * t.val + p.val; rw [e0]; omega
  | ⟨1, _⟩ => show win1_9.index t (1 : Fin 2) * 64 + 1 * q.val = q.val; rw [e1]; omega

/-- What point t writes back to the second output is block t of the second stage's array over the region-entry contents. -/
theorem flushed1_lv_eq (c : Dev nD) (t : Fin cfg1.N) :
    (dat1 V c).flushed 9 t = ((cfg1.win 9).blk t).view.read (Elt Ideal)
      (Ker.stage2 (V c main_v44) (V c main_v29) (V c main_v48) (V c main_v49) (V c main_v50)) := by
  show (cfg1.win 9).cut (grid1.coords t) ((dat1 V c).after 9 t) = _
  rw [after1_9]
  unfold out1_9
  rw [View.canon_unit_zero zero_offsets1]
  simp only [View.ld_unit_zero (S := S5000x128) zero_offsets1, View.ld_unit_zero (S := S128x64) zero_offsets1, View.ld_unit_zero (S := S1x64) zero_offsets1]
  funext y
  obtain ⟨p, q, rfl⟩ : ∃ (p : Fin 5000) (q : Fin 64), y = ix2 p q := ⟨y 0, y 1, eq_ix2 y⟩
  show k1_pay4 (F := Ideal) (iblk1 V c 0 t) (iblk1 V c 1 t) (iblk1 V c 5 t) (iblk1 V c 7 t) (iblk1 V c 6 t) (ix2 p q)
    = Ker.stage2 (V c main_v44) (V c main_v29) (V c main_v48) (V c main_v49) (V c main_v50) (((cfg1.win 9).blk t).view.emb (ix2 p q))
  rw [out_lv_block_index1 t p q]
  exact stage2_lv_of_blocks _ _ _ _ _ _ _ _ _ _ p q ⟨5000 * t.val + p.val, row_in_range1 t p⟩
    (fun k => mean_block_read1 V c t p k) (fun k => hidden_block_read1 V c t p k) (fun k => wrel_lv_block_read1 V c t k q)
    (bias_lv_block_read1 V c t 0 q) (fun k => wroot_lv_block_read1 V c t k q)

/-- An index of the second output array is in point t's block iff each coordinate is in the block's range on its axis. -/
theorem mem_out_lv_block1 (t : Fin cfg1.N) (i : S50000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v51_1).slice (win1_9.rect t)).set ↔ _
  rw [View.set_slice_whole, Rect.mem_set_unit]
  exact Iff.rfl

/-- Row r of the second output array is written back by point r / 5000. -/
theorem out_lv_covered1 (i : S50000x64.Idx) :
    ∃ t : Fin cfg1.N, (cfg1.win 9).flush t = true ∧ i ∈ ((cfg1.win 9).blk t).view.set := by
  have hi0 : (i 0).val < 50000 := (i 0).isLt
  have hi1 : (i 1).val < 64 := (i 1).isLt
  have ht : (i 0).val / 5000 < cfg1.N := by rw [grid_points1]; omega
  obtain ⟨e0, e1⟩ := index_map1_9 ⟨(i 0).val / 5000, ht⟩
  refine ⟨⟨(i 0).val / 5000, ht⟩, flush1_9 _, ?_⟩
  rw [mem_out_lv_block1]
  intro a
  match a with
  | ⟨0, _⟩ =>
    show win1_9.index ⟨(i 0).val / 5000, ht⟩ (0 : Fin 2) * 5000 ≤ (i 0).val ∧ (i 0).val < win1_9.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_9.index ⟨(i 0).val / 5000, ht⟩ (1 : Fin 2) * 64 ≤ (i 1).val ∧ (i 1).val < win1_9.index ⟨(i 0).val / 5000, ht⟩ (1 : Fin 2) * 64 + 64
    rw [e1]; omega

/-- THE SECOND pallas_call's second output array after the region: the second stage over the region-entry contents. -/
theorem region1_lv (c : Dev nD) :
    (dat1 V c).arrAt 9 cfg1.N = Ker.stage2 (V c main_v44) (V c main_v29) (V c main_v48) (V c main_v49) (V c main_v50) :=
  (dat1 V c).arrAt_eq_of_cover 9 (Ker.stage2 (V c main_v44) (V c main_v29) (V c main_v48) (V c main_v49) (V c main_v50))
    (fun t _ => flushed1_lv_eq V c t) out_lv_covered1

end Cert.KernelIdeal.HandRegions

end
-- ==== Proof.KerRegions.lean ====
/-
  From blocks to arrays for the kernel program's two pallas_calls, over the extended reals, for any region-entry
  contents: the first call's output array ends holding the first stage 'Ker.stage1' of its five input arrays
  ('region0'), and each of the second call's two output arrays ends holding the second stage 'Ker.stage2' of its
  head's five input arrays ('region1_mu', 'region1_lv').
-/
import proofs.«114850_j36369783063167_1_alg».proof.Proof.KerRegion0
import proofs.«114850_j36369783063167_1_alg».proof.Proof.KerRegion1
-- ==== Proof.KerValue.lean ====
/-
  The kernel program's value: its two results as functions of the launch contents of its arguments.

  The first pallas_call's output array holds the first stage of the arrays handed to it, which the host operations
  computed from the arguments: that is the hidden layer.  The second call's two output arrays hold the second stage
  of the arrays handed to it — the aggregated hidden layer, the hidden layer, a head's transposed weights and bias
  row —: that is a head over the hidden layer.  Each step is a rewriting with an equation proved elsewhere; the
  aggregation and the two stages stay closed throughout.
-/
import proofs.«114850_j36369783063167_1_alg».proof.Proof.KerRun
import proofs.«114850_j36369783063167_1_alg».proof.Proof.KerHostValues
import proofs.«114850_j36369783063167_1_alg».proof.Proof.KerRegions

set_option maxRecDepth 16384

noncomputable section

namespace Cert.KernelIdeal.HandRun

open Cert.KernelIdeal Cert.KernelIdeal.Gen Cert.Sage
open Idealize.ShloMosaic Idealize.ShloMosaic.TcCoe Idealize.ShloMosaic.Tactic
open Idealize.ShloMosaic.StableHlo (after_cons after_nil)

variable (m : (ℓ : Loc nD τ sig) → Buf (Elt Ideal) ℓ) (ρ : Dev nD → PrngReg) (c : Dev nD)

open Idealize.SL Idealize.SL.Sem

attribute [local irreducible] Host.scatterAdd Host.gather Host.divf transpose Ker.agg Ker.stage1 Ker.stage2 in
/-- The first pallas_call leaves the hidden layer in its output array. -/
theorem W2_main_v29 : Gen.W2 m ρ c (Proc.devRef .tc main_v29) = (Ker.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  refine (Gen.W2_arr m ρ c 5).trans ?_
  refine (HandRegions.region0 (Gen.V1 m ρ) c).trans ?_
  rw [V1_main_v25 m ρ c, V1_main_arg0 m ρ c, V1_main_v26 m ρ c, V1_main_v27 m ρ c, V1_main_v28 m ρ c]
  unfold Ker.hidden
  rfl

attribute [local irreducible] Host.scatterAdd Host.gather Host.divf transpose Ker.agg Ker.stage1 Ker.stage2 in
/-- The second pallas_call leaves the first head over the hidden layer in its first output array. -/
theorem W4_main_v51_0 : Gen.W4 m ρ c (Proc.devRef .tc main_v51_0)
    = Ker.head (Ker.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) := by
  refine (Gen.W4_arr m ρ c 8).trans ?_
  refine (HandRegions.region1_mu (Gen.V3 m ρ) c).trans ?_
  rw [V3_main_v44 m ρ c, V3_main_v29 m ρ c, V3_main_v45 m ρ c, V3_main_v46 m ρ c, V3_main_v47 m ρ c, W2_main_v29 m ρ c]
  unfold Ker.head
  rfl

attribute [local irreducible] Host.scatterAdd Host.gather Host.divf transpose Ker.agg Ker.stage1 Ker.stage2 in
/-- The second pallas_call leaves the second head over the hidden layer in its second output array. -/
theorem W4_main_v51_1 : Gen.W4 m ρ c (Proc.devRef .tc main_v51_1)
    = Ker.head (Ker.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) := by
  refine (Gen.W4_arr m ρ c 9).trans ?_
  refine (HandRegions.region1_lv (Gen.V3 m ρ) c).trans ?_
  rw [V3_main_v44 m ρ c, V3_main_v29 m ρ c, V3_main_v48 m ρ c, V3_main_v49 m ρ c, V3_main_v50 m ρ c, W2_main_v29 m ρ c]
  unfold Ker.head
  rfl

/-- From any memory with zero counters every weakly fair execution of the program on the TensorCores terminates,
    nothing faulting, and in every final state the two result buffers hold the two heads over the hidden layer, all
    of them functions of the launch contents of the arguments, which are unchanged. -/
theorem run : θ_run (defs (F := Ideal)) (onTc (τ := τ) (main (F := Ideal))) ⟨m, fun _ => 0, ρ⟩ (fun r => ∀ c : Dev nD,
      r.2.mem ((c.tc : Thread nD τ).loc main_v51_0) = Ker.head (Ker.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8))
      ∧ r.2.mem ((c.tc : Thread nD τ).loc main_v51_1) = Ker.head (Ker.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono
    (fun r h c => ⟨(h c).1.trans (W4_main_v51_0 m ρ c), (h c).2.1.trans (W4_main_v51_1 m ρ c), (h c).2.2⟩)
    (run_values m ρ)

end Cert.KernelIdeal.HandRun

end
-- ==== Proof.RefRun.lean ====
/-
  The reference program's run, written out: @main is a straight line of host operations once the outlined
  functions (the ELU and the two selects it calls) are put back at their call site, each over the buffers that
  call names.  The line is listed as 'ops'; @main is 'seq ops'; every weakly fair execution terminates with each
  buffer at the fold of the operations' results over the launch contents.
-/
import proofs.«114850_j36369783063167_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 127 operations in order: the forty before the ELU, the ELU's fifteen (seven of its own, the three of
    the select against a scalar, four more, the final select, whose result is the hidden layer), then the
    two output heads. -/
abbrev ops : List (HloOp τ sig (Elt F)) :=
  [
    StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_arg2 main_v11 (broadcastInDim S800000x1 ![0] bcast_S800000_S800000x1_0 : (⟨S800000, .f32⟩ : BufTy).Contents (Elt F) → (⟨S800000x1, .f32⟩ : BufTy).Contents (Elt F)),
    StableHlo.unary main_v11 main_v12 (broadcastInDim S800000x128 ![0, 1] bcast_S800000x1_S800000x128_0_1 : (⟨S800000x1, .f32⟩ : BufTy).Contents (Elt F) → (⟨S800000x128, .f32⟩ : BufTy).Contents (Elt F)),
    StableHlo.binary main_v10 main_v12 main_v13 (mulf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.unary main_cst main_v14 (broadcastInDim S50000x128 ![] bcast_S_S50000x128 : (⟨S_, .f32⟩ : BufTy).Contents (Elt F) → (⟨S50000x128, .f32⟩ : BufTy).Contents (Elt F)),
    StableHlo.unary main_v3 main_v15 (broadcastInDim S800000x1 ![0] bcast_S800000_S800000x1_0 : (⟨S800000, .i32⟩ : BufTy).Contents (Elt F) → (⟨S800000x1, .i32⟩ : BufTy).Contents (Elt F)),
    StableHlo.ternary main_v14 main_v15 main_v13 main_v16 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v17 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v18 (broadcastInDim S50000 ![] bcast_S_S50000 : (⟨S_, .f32⟩ : BufTy).Contents (Elt F) → (⟨S50000, .f32⟩ : BufTy).Contents (Elt F)),
    StableHlo.unary main_v3 main_v19 (broadcastInDim S800000x1 ![0] bcast_S800000_S800000x1_0 : (⟨S800000, .i32⟩ : BufTy).Contents (Elt F) → (⟨S800000x1, .i32⟩ : BufTy).Contents (Elt F)),
    StableHlo.ternary main_v18 main_v19 main_v17 main_v20 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v21 (broadcastInDim S50000 ![] bcast_S_S50000 : (⟨S_, .f32⟩ : BufTy).Contents (Elt F) → (⟨S50000, .f32⟩ : BufTy).Contents (Elt F)),
    StableHlo.binary main_v20 main_v21 main_v22 (maximumf : (⟨S50000, .f32⟩ : BufTy).Contents (Elt F) → (⟨S50000, .f32⟩ : BufTy).Contents (Elt F) → (⟨S50000, .f32⟩ : BufTy).Contents (Elt F)),
    StableHlo.unary main_v22 main_v23 (broadcastInDim S50000x1 ![0] bcast_S50000_S50000x1_0 : (⟨S50000, .f32⟩ : BufTy).Contents (Elt F) → (⟨S50000x1, .f32⟩ : BufTy).Contents (Elt F)),
    StableHlo.unary main_v23 main_v24 (broadcastInDim S50000x128 ![0, 1] bcast_S50000x1_S50000x128_0_1 : (⟨S50000x1, .f32⟩ : BufTy).Contents (Elt F) → (⟨S50000x128, .f32⟩ : BufTy).Contents (Elt F)),
    StableHlo.binary main_v16 main_v24 main_v25 (Host.divf : (⟨S50000x128, .f32⟩ : BufTy).Contents (Elt F) → (⟨S50000x128, .f32⟩ : BufTy).Contents (Elt F) → (⟨S50000x128, .f32⟩ : BufTy).Contents (Elt F)),
    StableHlo.unary main_arg3 main_v26 ((transpose S128x128 [1, 0] · transposes_S128x128_S128x128_1_0) : (⟨S128x128, .f32⟩ : BufTy).Contents (Elt F) → (⟨S128x128, .f32⟩ : BufTy).Contents (Elt F)),
    StableHlo.binary main_v25 main_v26 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v29 main_v30 (addf : (⟨S50000x128, .f32⟩ : BufTy).Contents (Elt F) → (⟨S50000x128, .f32⟩ : BufTy).Contents (Elt F) → (⟨S50000x128, .f32⟩ : BufTy).Contents (Elt F)),
    StableHlo.unary main_arg5 main_v31 ((transpose S128x128 [1, 0] · transposes_S128x128_S128x128_1_0) : (⟨S128x128, .f32⟩ : BufTy).Contents (Elt F) → (⟨S128x128, .f32⟩ : BufTy).Contents (Elt F)),
    StableHlo.binary main_arg0 main_v31 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v30 main_v32 main_v33 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v33) main_call0.v0 main_call0.v1 (cmpf .ogt),
    StableHlo.TRef.nullary main_call0.cst_0 (constant S_ .f32 0x00000000#32),
    StableHlo.TRef.unary main_call0.cst_0 main_call0.v2 (broadcastInDim S50000x128 ![] bcast_S_S50000x128),
    StableHlo.TRef.binary (.of main_v33) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S50000x128 ![] bcast_S_S50000x128),
    StableHlo.TRef.ternary main_call0.v3 main_call0.call0.v1 (.of main_v33) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S50000x128 ![] bcast_S_S50000x128),
    StableHlo.TRef.binary main_call0.v6 main_call0.v5 main_call0.v7 mulf,
    StableHlo.TRef.ternary main_call0.v1 (.of main_v33) main_call0.v7 main_call0.call1.v0 select,
    StableHlo.nullary main_c_4 (constantI S_ 32 0#32),
    StableHlo.unary main_c_4 main_v35 (broadcastInDim S800000 ![] bcast_S_S800000 : (⟨S_, .i32⟩ : BufTy).Contents (Elt F) → (⟨S800000, .i32⟩ : BufTy).Contents (Elt F)),
    StableHlo.binary main_v1 main_v35 main_v36 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v37 (broadcastInDim S800000 ![] bcast_S_S800000 : (⟨S_, .i32⟩ : BufTy).Contents (Elt F) → (⟨S800000, .i32⟩ : BufTy).Contents (Elt F)),
    StableHlo.binary main_v1 main_v37 main_v38 (addi : (⟨S800000, .i32⟩ : BufTy).Contents (Elt F) → (⟨S800000, .i32⟩ : BufTy).Contents (Elt F) → (⟨S800000, .i32⟩ : BufTy).Contents (Elt F)),
    StableHlo.ternary main_v36 main_v38 main_v1 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v39 main_v40 (broadcastInDim S800000x1 ![0] bcast_S800000_S800000x1_0 : (⟨S800000, .i32⟩ : BufTy).Contents (Elt F) → (⟨S800000x1, .i32⟩ : BufTy).Contents (Elt F)),
    StableHlo.binary main_v34 main_v40 main_v41 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_arg2 main_v42 (broadcastInDim S800000x1 ![0] bcast_S800000_S800000x1_0 : (⟨S800000, .f32⟩ : BufTy).Contents (Elt F) → (⟨S800000x1, .f32⟩ : BufTy).Contents (Elt F)),
    StableHlo.unary main_v42 main_v43 (broadcastInDim S800000x128 ![0, 1] bcast_S800000x1_S800000x128_0_1 : (⟨S800000x1, .f32⟩ : BufTy).Contents (Elt F) → (⟨S800000x128, .f32⟩ : BufTy).Contents (Elt F)),
    StableHlo.binary main_v41 main_v43 main_v44 (mulf : (⟨S800000x128, .f32⟩ : BufTy).Contents (Elt F) → (⟨S800000x128, .f32⟩ : BufTy).Contents (Elt F) → (⟨S800000x128, .f32⟩ : BufTy).Contents (Elt F)),
    StableHlo.nullary main_cst_6 (constant S_ .f32 0x00000000#32),
    StableHlo.unary main_cst_6 main_v45 (broadcastInDim S50000x128 ![] bcast_S_S50000x128 : (⟨S_, .f32⟩ : BufTy).Contents (Elt F) → (⟨S50000x128, .f32⟩ : BufTy).Contents (Elt F)),
    StableHlo.unary main_v3 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v44 main_v47 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_7 (constant S_ .f32 0x3F800000#32),
    StableHlo.unary main_cst_7 main_v48 (broadcastInDim S800000 ![] bcast_S_S800000 : (⟨S_, .f32⟩ : BufTy).Contents (Elt F) → (⟨S800000, .f32⟩ : BufTy).Contents (Elt F)),
    StableHlo.nullary main_cst_8 (constant S_ .f32 0x00000000#32),
    StableHlo.unary main_cst_8 main_v49 (broadcastInDim S50000 ![] bcast_S_S50000 : (⟨S_, .f32⟩ : BufTy).Contents (Elt F) → (⟨S50000, .f32⟩ : BufTy).Contents (Elt F)),
    StableHlo.unary main_v3 main_v50 (broadcastInDim S800000x1 ![0] bcast_S800000_S800000x1_0 : (⟨S800000, .i32⟩ : BufTy).Contents (Elt F) → (⟨S800000x1, .i32⟩ : BufTy).Contents (Elt F)),
    StableHlo.ternary main_v49 main_v50 main_v48 main_v51 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_9 (constant S_ .f32 0x3F800000#32),
    StableHlo.unary main_cst_9 main_v52 (broadcastInDim S50000 ![] bcast_S_S50000 : (⟨S_, .f32⟩ : BufTy).Contents (Elt F) → (⟨S50000, .f32⟩ : BufTy).Contents (Elt F)),
    StableHlo.binary main_v51 main_v52 main_v53 (maximumf : (⟨S50000, .f32⟩ : BufTy).Contents (Elt F) → (⟨S50000, .f32⟩ : BufTy).Contents (Elt F) → (⟨S50000, .f32⟩ : BufTy).Contents (Elt F)),
    StableHlo.unary main_v53 main_v54 (broadcastInDim S50000x1 ![0] bcast_S50000_S50000x1_0 : (⟨S50000, .f32⟩ : BufTy).Contents (Elt F) → (⟨S50000x1, .f32⟩ : BufTy).Contents (Elt F)),
    StableHlo.unary main_v54 main_v55 (broadcastInDim S50000x128 ![0, 1] bcast_S50000x1_S50000x128_0_1 : (⟨S50000x1, .f32⟩ : BufTy).Contents (Elt F) → (⟨S50000x128, .f32⟩ : BufTy).Contents (Elt F)),
    StableHlo.binary main_v47 main_v55 main_v56 (Host.divf : (⟨S50000x128, .f32⟩ : BufTy).Contents (Elt F) → (⟨S50000x128, .f32⟩ : BufTy).Contents (Elt F) → (⟨S50000x128, .f32⟩ : BufTy).Contents (Elt F)),
    StableHlo.unary main_arg6 main_v57 ((transpose S128x64 [1, 0] · transposes_S64x128_S128x64_1_0) : (⟨S64x128, .f32⟩ : BufTy).Contents (Elt F) → (⟨S128x64, .f32⟩ : BufTy).Contents (Elt F)),
    StableHlo.binary main_v56 main_v57 main_v58 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg7 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S50000x64 ![0, 1] bcast_S1x64_S50000x64_0_1 : (⟨S1x64, .f32⟩ : BufTy).Contents (Elt F) → (⟨S50000x64, .f32⟩ : BufTy).Contents (Elt F)),
    StableHlo.binary main_v58 main_v60 main_v61 (addf : (⟨S50000x64, .f32⟩ : BufTy).Contents (Elt F) → (⟨S50000x64, .f32⟩ : BufTy).Contents (Elt F) → (⟨S50000x64, .f32⟩ : BufTy).Contents (Elt F)),
    StableHlo.unary main_arg8 main_v62 ((transpose S128x64 [1, 0] · transposes_S64x128_S128x64_1_0) : (⟨S64x128, .f32⟩ : BufTy).Contents (Elt F) → (⟨S128x64, .f32⟩ : BufTy).Contents (Elt F)),
    StableHlo.binary main_v34 main_v62 main_v63 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.binary main_v61 main_v63 main_v64 (addf : (⟨S50000x64, .f32⟩ : BufTy).Contents (Elt F) → (⟨S50000x64, .f32⟩ : BufTy).Contents (Elt F) → (⟨S50000x64, .f32⟩ : BufTy).Contents (Elt F)),
    StableHlo.nullary main_c_10 (constantI S_ 32 0#32),
    StableHlo.unary main_c_10 main_v65 (broadcastInDim S800000 ![] bcast_S_S800000 : (⟨S_, .i32⟩ : BufTy).Contents (Elt F) → (⟨S800000, .i32⟩ : BufTy).Contents (Elt F)),
    StableHlo.binary main_v1 main_v65 main_v66 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v67 (broadcastInDim S800000 ![] bcast_S_S800000 : (⟨S_, .i32⟩ : BufTy).Contents (Elt F) → (⟨S800000, .i32⟩ : BufTy).Contents (Elt F)),
    StableHlo.binary main_v1 main_v67 main_v68 (addi : (⟨S800000, .i32⟩ : BufTy).Contents (Elt F) → (⟨S800000, .i32⟩ : BufTy).Contents (Elt F) → (⟨S800000, .i32⟩ : BufTy).Contents (Elt F)),
    StableHlo.ternary main_v66 main_v68 main_v1 main_v69 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v69 main_v70 (broadcastInDim S800000x1 ![0] bcast_S800000_S800000x1_0 : (⟨S800000, .i32⟩ : BufTy).Contents (Elt F) → (⟨S800000x1, .i32⟩ : BufTy).Contents (Elt F)),
    StableHlo.binary main_v34 main_v70 main_v71 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_arg2 main_v72 (broadcastInDim S800000x1 ![0] bcast_S800000_S800000x1_0 : (⟨S800000, .f32⟩ : BufTy).Contents (Elt F) → (⟨S800000x1, .f32⟩ : BufTy).Contents (Elt F)),
    StableHlo.unary main_v72 main_v73 (broadcastInDim S800000x128 ![0, 1] bcast_S800000x1_S800000x128_0_1 : (⟨S800000x1, .f32⟩ : BufTy).Contents (Elt F) → (⟨S800000x128, .f32⟩ : BufTy).Contents (Elt F)),
    StableHlo.binary main_v71 main_v73 main_v74 (mulf : (⟨S800000x128, .f32⟩ : BufTy).Contents (Elt F) → (⟨S800000x128, .f32⟩ : BufTy).Contents (Elt F) → (⟨S800000x128, .f32⟩ : BufTy).Contents (Elt F)),
    StableHlo.nullary main_cst_12 (constant S_ .f32 0x00000000#32),
    StableHlo.unary main_cst_12 main_v75 (broadcastInDim S50000x128 ![] bcast_S_S50000x128 : (⟨S_, .f32⟩ : BufTy).Contents (Elt F) → (⟨S50000x128, .f32⟩ : BufTy).Contents (Elt F)),
    StableHlo.unary main_v3 main_v76 (broadcastInDim S800000x1 ![0] bcast_S800000_S800000x1_0 : (⟨S800000, .i32⟩ : BufTy).Contents (Elt F) → (⟨S800000x1, .i32⟩ : BufTy).Contents (Elt F)),
    StableHlo.ternary main_v75 main_v76 main_v74 main_v77 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_13 (constant S_ .f32 0x3F800000#32),
    StableHlo.unary main_cst_13 main_v78 (broadcastInDim S800000 ![] bcast_S_S800000 : (⟨S_, .f32⟩ : BufTy).Contents (Elt F) → (⟨S800000, .f32⟩ : BufTy).Contents (Elt F)),
    StableHlo.nullary main_cst_14 (constant S_ .f32 0x00000000#32),
    StableHlo.unary main_cst_14 main_v79 (broadcastInDim S50000 ![] bcast_S_S50000 : (⟨S_, .f32⟩ : BufTy).Contents (Elt F) → (⟨S50000, .f32⟩ : BufTy).Contents (Elt F)),
    StableHlo.unary main_v3 main_v80 (broadcastInDim S800000x1 ![0] bcast_S800000_S800000x1_0 : (⟨S800000, .i32⟩ : BufTy).Contents (Elt F) → (⟨S800000x1, .i32⟩ : BufTy).Contents (Elt F)),
    StableHlo.ternary main_v79 main_v80 main_v78 main_v81 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_15 (constant S_ .f32 0x3F800000#32),
    StableHlo.unary main_cst_15 main_v82 (broadcastInDim S50000 ![] bcast_S_S50000 : (⟨S_, .f32⟩ : BufTy).Contents (Elt F) → (⟨S50000, .f32⟩ : BufTy).Contents (Elt F)),
    StableHlo.binary main_v81 main_v82 main_v83 (maximumf : (⟨S50000, .f32⟩ : BufTy).Contents (Elt F) → (⟨S50000, .f32⟩ : BufTy).Contents (Elt F) → (⟨S50000, .f32⟩ : BufTy).Contents (Elt F)),
    StableHlo.unary main_v83 main_v84 (broadcastInDim S50000x1 ![0] bcast_S50000_S50000x1_0 : (⟨S50000, .f32⟩ : BufTy).Contents (Elt F) → (⟨S50000x1, .f32⟩ : BufTy).Contents (Elt F)),
    StableHlo.unary main_v84 main_v85 (broadcastInDim S50000x128 ![0, 1] bcast_S50000x1_S50000x128_0_1 : (⟨S50000x1, .f32⟩ : BufTy).Contents (Elt F) → (⟨S50000x128, .f32⟩ : BufTy).Contents (Elt F)),
    StableHlo.binary main_v77 main_v85 main_v86 (Host.divf : (⟨S50000x128, .f32⟩ : BufTy).Contents (Elt F) → (⟨S50000x128, .f32⟩ : BufTy).Contents (Elt F) → (⟨S50000x128, .f32⟩ : BufTy).Contents (Elt F)),
    StableHlo.unary main_arg9 main_v87 ((transpose S128x64 [1, 0] · transposes_S64x128_S128x64_1_0) : (⟨S64x128, .f32⟩ : BufTy).Contents (Elt F) → (⟨S128x64, .f32⟩ : BufTy).Contents (Elt F)),
    StableHlo.binary main_v86 main_v87 main_v88 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg10 main_v89 (broadcastInDim S1x64 ![1] bcast_S64_S1x64_1 : (⟨S64, .f32⟩ : BufTy).Contents (Elt F) → (⟨S1x64, .f32⟩ : BufTy).Contents (Elt F)),
    StableHlo.unary main_v89 main_v90 (broadcastInDim S50000x64 ![0, 1] bcast_S1x64_S50000x64_0_1 : (⟨S1x64, .f32⟩ : BufTy).Contents (Elt F) → (⟨S50000x64, .f32⟩ : BufTy).Contents (Elt F)),
    StableHlo.binary main_v88 main_v90 main_v91 (addf : (⟨S50000x64, .f32⟩ : BufTy).Contents (Elt F) → (⟨S50000x64, .f32⟩ : BufTy).Contents (Elt F) → (⟨S50000x64, .f32⟩ : BufTy).Contents (Elt F)),
    StableHlo.unary main_arg11 main_v92 ((transpose S128x64 [1, 0] · transposes_S64x128_S128x64_1_0) : (⟨S64x128, .f32⟩ : BufTy).Contents (Elt F) → (⟨S128x64, .f32⟩ : BufTy).Contents (Elt F)),
    StableHlo.binary main_v34 main_v92 main_v93 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.binary main_v91 main_v93 main_v94 (addf : (⟨S50000x64, .f32⟩ : BufTy).Contents (Elt F) → (⟨S50000x64, .f32⟩ : BufTy).Contents (Elt F) → (⟨S50000x64, .f32⟩ : BufTy).Contents (Elt F)) ]

-- the chain of binds is re-associated once per statement: the rewrite recurses as deep as the line is long
set_option maxRecDepth 8192 in
set_option maxHeartbeats 4000000 in
/-- @main is that straight line: its two windows run in order, the ELU and its two selects unfolded at their
    calls and the records at their fields; both sides are one chain of steps once sequencing is re-associated. -/
theorem main_eq (c : Dev nD) : main (F := F) c = seq ops := by
  simp only [main, main_part0, main_part1, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

/-- On every device, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefRunValue.lean ====
/-
  What the reference program leaves in its buffers, through the named host arithmetic.

  Reading the fold of the operations at the two result buffers gives, operation by operation, the dense output
  head over the mean aggregation of the hidden layer, the hidden layer being the ELU of the dense layer over the
  mean aggregation of the input features; the two heads differ only in their three weight operands.  No operation
  writes an argument buffer, so each argument ends as it started.  The equations are between terms built from the
  same host functions applied to the same operands: scatter-add, gather, the division, expm1 and the transpose
  are never looked into.
-/
import proofs.«114850_j36369783063167_1_alg».proof.Proof.RefRun
import proofs.«114850_j36369783063167_1_alg».proof.Proof.Spec

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Sage

variable {F : FTy → Type} [FloatOps F]

attribute [local irreducible] Host.scatterAdd Host.gather Host.divf Host.expm1 transpose in
set_option maxRecDepth 8192 in
set_option maxHeartbeats 4000000 in
/-- The first result buffer ends at the first output head over the hidden layer: each operation's result read at
    its own buffer and every other buffer left alone, the composed term is the named one by unfolding the names
    (a reshape's result is the re-laid vector entry by entry; the typed references' transports are the identity). -/
theorem out0_eq (V : Valuation τ sig (Elt F)) :
    after ops V (main_v64 : DevRef τ sig) = Ref.head (Ref.hidden (V (main_arg0 : DevRef τ sig)) (Ref.row0 (V (main_arg1 : DevRef τ sig))) (Ref.row1 (V (main_arg1 : DevRef τ sig))) (V (main_arg2 : DevRef τ sig)) (V (main_arg3 : DevRef τ sig)) (V (main_arg4 : DevRef τ sig)) (V (main_arg5 : DevRef τ sig))) (Ref.row0 (V (main_arg1 : DevRef τ sig))) (Ref.row1 (V (main_arg1 : DevRef τ sig))) (V (main_arg2 : DevRef τ sig)) (V (main_arg6 : DevRef τ sig)) (V (main_arg7 : DevRef τ sig)) (V (main_arg8 : DevRef τ sig)) := by
  after_results_simp
  rfl

attribute [local irreducible] Host.scatterAdd Host.gather Host.divf Host.expm1 transpose in
set_option maxRecDepth 8192 in
set_option maxHeartbeats 4000000 in
/-- The second result buffer ends at the second output head over the same hidden layer. -/
theorem out1_eq (V : Valuation τ sig (Elt F)) :
    after ops V (main_v94 : DevRef τ sig) = Ref.head (Ref.hidden (V (main_arg0 : DevRef τ sig)) (Ref.row0 (V (main_arg1 : DevRef τ sig))) (Ref.row1 (V (main_arg1 : DevRef τ sig))) (V (main_arg2 : DevRef τ sig)) (V (main_arg3 : DevRef τ sig)) (V (main_arg4 : DevRef τ sig)) (V (main_arg5 : DevRef τ sig))) (Ref.row0 (V (main_arg1 : DevRef τ sig))) (Ref.row1 (V (main_arg1 : DevRef τ sig))) (V (main_arg2 : DevRef τ sig)) (V (main_arg9 : DevRef τ sig)) (V (main_arg10 : DevRef τ sig)) (V (main_arg11 : DevRef τ sig)) := by
  after_results_simp
  rfl

/-! No operation writes an argument buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

theorem arg11_eq (V : Valuation τ sig (Elt F)) :
    after ops V (main_arg11 : DevRef τ sig) = V (main_arg11 : DevRef τ sig) := by
  after_results_simp

/-- On every device, over the extended reals, from any memory with zero counters: every weakly fair execution of
    @main terminates with the two result buffers at the two output heads of the arguments' launch contents and
    the twelve arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v64) = Ref.head (F := Ideal) (Ref.hidden (F := Ideal) (m ((c.tc : Thread nD τ).loc main_arg0)) (Ref.row0 (F := Ideal) (m ((c.tc : Thread nD τ).loc main_arg1))) (Ref.row1 (F := Ideal) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5))) (Ref.row0 (F := Ideal) (m ((c.tc : Thread nD τ).loc main_arg1))) (Ref.row1 (F := Ideal) (m ((c.tc : Thread nD τ).loc main_arg1))) (m ((c.tc : Thread nD τ).loc main_arg2)) (m ((c.tc : Thread nD τ).loc main_arg6)) (m ((c.tc : Thread nD τ).loc main_arg7)) (m ((c.tc : Thread nD τ).loc main_arg8))
      ∧ r.2.mem ((c.tc : Thread nD τ).loc main_v94) = Ref.head (F := Ideal) (Ref.hidden (F := Ideal) (m ((c.tc : Thread nD τ).loc main_arg0)) (Ref.row0 (F := Ideal) (m ((c.tc : Thread nD τ).loc main_arg1))) (Ref.row1 (F := Ideal) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5))) (Ref.row0 (F := Ideal) (m ((c.tc : Thread nD τ).loc main_arg1))) (Ref.row1 (F := Ideal) (m ((c.tc : Thread nD τ).loc main_arg1))) (m ((c.tc : Thread nD τ).loc main_arg2)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run (defs (F := Ideal)) _ _).mono
    (fun _ h c => ⟨(h c main_v64).trans (out0_eq _), (h c main_v94).trans (out1_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_main (F := Ideal) m ρ)

end Cert.ReferenceIdeal.HandRun

end
-- ==== Proof.LibHostLogistic.lean ====
/-
  The logistic function and the swish as a host program spells them, and a bias vector added to every row of a matrix,
  read at an index over the extended reals. Independent of any program.

  A host program may spell σ(z) out as 1 / (1 + e^(-z)) in four elementwise operations — negate, exponential, add,
  divide — with the scalar 1.0 broadcast to the array's shape; the swish is z times that. Over the extended reals the f32 word of
  1.0 denotes 1, and `Ideal.logistic z` is by definition `Ideal.div 1 (1 + Ideal.exp (-z))`: so the spelt-out quotient
  IS the logistic function at every index, infinities included. A bias vector [f] broadcast to the row [1, f] and then
  down n rows contributes its entry q to entry (p, q).
-/
import Idealize.ShloMosaic.Lib.ValueIdx
import Idealize.ShloMosaic.Lib.Pipeline.Value
import Idealize.ShloMosaic.PureOps.Ideal
import Idealize.ShloMosaic.PureOps.IdealRules

noncomputable section

namespace Cert.Lib

open Idealize.ShloMosaic Idealize.ShloMosaic.ValueIdx

/-- The f32 word of 1.0 denotes the extended real 1. -/
theorem one_f32 : Ideal.ofBits .f32 0x3F800000#32 = 1 := IdealRules.sign_bit.ideal_onePat .f32

/-- The scalar 1.0 broadcast to any shape is 1 at every index. -/
theorem ones_apply {s : Shape} (h0 : (⟨0, ![]⟩ : Shape).BroadcastsInDim s ![]) (i : s.Idx) :
    broadcastInDim s ![] h0 (constant (F := Ideal) ⟨0, ![]⟩ .f32 0x3F800000#32) i = 1 :=
  (broadcastInDim_apply ![] h0 _ i ix0 (fun a => a.elim0)).trans one_f32

/-- 1 / (1 + e^(-z)), spelt in the host's operations, is the logistic function at every index. -/
theorem hostLogistic_apply {s : Shape} (z : FVec Ideal s .f32) (h0 : (⟨0, ![]⟩ : Shape).BroadcastsInDim s ![]) (i : s.Idx) :
    Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z))) i
      = Ideal.logistic (z i) := by
  show Ideal.div (broadcastInDim s ![] h0 (constant (F := Ideal) ⟨0, ![]⟩ .f32 0x3F800000#32) i)
      (broadcastInDim s ![] h0 (constant (F := Ideal) ⟨0, ![]⟩ .f32 0x3F800000#32) i + Ideal.exp (-(z i)))
    = Ideal.div 1 (1 + Ideal.exp (-(z i)))
  rw [ones_apply h0 i]

/-- z · (1 / (1 + e^(-z))), spelt in the host's operations, is z · σ(z) at every index. -/
theorem hostSwish_apply {s : Shape} (z : FVec Ideal s .f32) (h0 : (⟨0, ![]⟩ : Shape).BroadcastsInDim s ![]) (i : s.Idx) :
    mulf z (Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z)))) i
      = z i * Ideal.logistic (z i) :=
  congrArg (z i * ·) (hostLogistic_apply z h0 i)

/-- A bias vector [f] broadcast to the row [1, f], then down n rows, and added: entry (p, q) gains the vector's entry q. -/
theorem hostRowBias_apply {n f : Nat} (a : FVec Ideal ⟨2, ![n, f]⟩ .f32) (b : FVec Ideal ⟨1, ![f]⟩ .f32)
    (h1 : (⟨1, ![f]⟩ : Shape).BroadcastsInDim ⟨2, ![1, f]⟩ ![1])
    (h2 : (⟨2, ![1, f]⟩ : Shape).BroadcastsInDim ⟨2, ![n, f]⟩ ![0, 1]) (p : Fin n) (q : Fin f) :
    addf a (broadcastInDim ⟨2, ![n, f]⟩ ![0, 1] h2 (broadcastInDim ⟨2, ![1, f]⟩ ![1] h1 b)) (ix2 p q)
      = a (ix2 p q) + b (ix1 q) := by
  have hq := q.isLt
  have e2 : broadcastInDim ⟨2, ![n, f]⟩ ![0, 1] h2 (broadcastInDim ⟨2, ![1, f]⟩ ![1] h1 b) (ix2 p q)
      = broadcastInDim ⟨2, ![1, f]⟩ ![1] h1 b (ix2 0 q) :=
    broadcastInDim_apply ![0, 1] h2 _ (ix2 p q) (ix2 0 q) (fun d => by
      match d with
      | ⟨0, _⟩ => show (0 : Nat) = if (1 : Nat) = 1 then 0 else p.val; rw [if_pos rfl]
      | ⟨1, _⟩ => show q.val = if f = 1 then 0 else q.val; split <;> omega)
  have e1 : broadcastInDim ⟨2, ![1, f]⟩ ![1] h1 b (ix2 0 q) = b (ix1 q) :=
    broadcastInDim_apply ![1] h1 b (ix2 0 q) (ix1 q) (fun d => by
      match d with
      | ⟨0, _⟩ => show q.val = if f = 1 then 0 else q.val; split <;> omega)
  show a (ix2 p q) + _ = a (ix2 p q) + b (ix1 q)
  rw [e2, e1]

end Cert.Lib

end
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.Bridge.lean ====
/-
  The two programs compute one function of their arguments.

  Both aggregate messages by the same host operations, so the aggregated features are one array on both sides. What
  is left is a dense layer at an entry: the kernel multiplies row blocks by weights the host transposed beforehand, the
  reference multiplies whole arrays by the same transposed weights, and over the extended reals both products are the
  plain sum over the 128 shared positions; the bias reaches entry (p, q) as its entry q on both roads. After the first
  layer the kernel's select between z and e^z − 1 and the reference's lowered ELU (two selects around expm1, times
  1.0) are the same function of z. No law beyond 1 · y = y is used, so nothing here needs the inputs to be finite.
-/
import proofs.«114850_j36369783063167_1_alg».proof.Proof.Spec
import proofs.«114850_j36369783063167_1_alg».proof.Proof.LibPlainDot
import proofs.«114850_j36369783063167_1_alg».proof.Proof.LibHostLogistic
import proofs.«114850_j36369783063167_1_alg».proof.Proof.LibRowLayout
import Idealize.ShloMosaic.Lib.ValueIdx
import Idealize.ShloMosaic.Lib.Pipeline.Value
import Idealize.ShloMosaic.PureOps.Ideal.Laws

noncomputable section
namespace Cert.Sage
open Idealize.ShloMosaic Idealize.ShloMosaic.ValueIdx

section
open Cert.ReferenceIdeal Cert.ReferenceIdeal.Facts₀

/-- The reference's lowered ELU is the function eluE at every index. -/
theorem refElu_apply (z : FVec Ideal S50000x128 .f32) (i : S50000x128.Idx) : Ref.elu (F := Ideal) z i = eluE (z i) := by
  unfold Ref.elu
  exact Cert.Lib.Elu.hostElu_apply z _ i

/-- The reference's dense layer into 128 features at an entry: the two products as sums over the 128 shared positions,
    the bias entry between them. -/
theorem refDense128_apply (mean x : FVec Ideal S50000x128 .f32) (wrel : FVec Ideal S128x128 .f32) (b : FVec Ideal S128 .f32)
    (wroot : FVec Ideal S128x128 .f32) (p : Fin 50000) (q : Fin 128) :
    Ref.dense128 (F := Ideal) mean x wrel b wroot (ix2 p q)
      = ∑ k : Fin 128, mean (ix2 p k) * transpose S128x128 [1, 0] wrel transposes_S128x128_S128x128_1_0 (ix2 k q) + b (ix1 q)
        + ∑ k : Fin 128, x (ix2 p k) * transpose S128x128 [1, 0] wroot transposes_S128x128_S128x128_1_0 (ix2 k q) := by
  unfold Ref.dense128
  rw [addf_apply, Cert.Lib.hostRowBias_apply]
  simp only [Host.dotGeneral]
  exact congrArg₂ (· + ·) (congrArg₂ (· + ·) (Cert.Lib.dotGeneral_plain_apply _ none _ mean _ p q) rfl)
    (Cert.Lib.dotGeneral_plain_apply _ none _ x _ p q)

theorem refDense64_apply (mean x : FVec Ideal S50000x128 .f32) (wrel : FVec Ideal S64x128 .f32) (b : FVec Ideal S64 .f32)
    (wroot : FVec Ideal S64x128 .f32) (p : Fin 50000) (q : Fin 64) :
    Ref.dense64 (F := Ideal) mean x wrel b wroot (ix2 p q)
      = ∑ k : Fin 128, mean (ix2 p k) * transpose S128x64 [1, 0] wrel transposes_S64x128_S128x64_1_0 (ix2 k q) + b (ix1 q)
        + ∑ k : Fin 128, x (ix2 p k) * transpose S128x64 [1, 0] wroot transposes_S64x128_S128x64_1_0 (ix2 k q) := by
  unfold Ref.dense64
  rw [addf_apply, Cert.Lib.hostRowBias_apply]
  simp only [Host.dotGeneral]
  exact congrArg₂ (· + ·) (congrArg₂ (· + ·) (Cert.Lib.dotGeneral_plain_apply _ none _ mean _ p q) rfl)
    (Cert.Lib.dotGeneral_plain_apply _ none _ x _ p q)
end

/-! ## The two programs compute one function -/

/-- The aggregation is the same function of its operands in both programs (the same operations over the same
    dimension numbers), and so are the two rows of the edge table. -/
theorem agg_eq (x : FVec Ideal Cert.KernelIdeal.S50000x128 .f32) (ei : IVec Cert.KernelIdeal.S2x800000 32)
    (ea : FVec Ideal Cert.KernelIdeal.S800000 .f32) :
    Ker.agg (F := Ideal) x (Ker.row0 (F := Ideal) ei) (Ker.row1 (F := Ideal) ei) ea
      = Ref.agg (F := Ideal) x (Ref.row0 (F := Ideal) ei) (Ref.row1 (F := Ideal) ei) ea := rfl

/-- The bias re-laid as a row, read at (0, q), is the bias at q. -/
theorem bRow128_apply (b : FVec Ideal Cert.KernelIdeal.S128 .f32) (q : Fin 128) :
    Ker.bRow128 (F := Ideal) b (ix2 0 q) = b (ix1 q) := Cert.Lib.vecToRow_apply b _ q
theorem bRow64_apply (b : FVec Ideal Cert.KernelIdeal.S64 .f32) (q : Fin 64) :
    Ker.bRow64 (F := Ideal) b (ix2 0 q) = b (ix1 q) := Cert.Lib.vecToRow_apply b _ q

/-- THE HIDDEN LAYER: entry (p, q) of the first pallas_call's output array is ELU of
    Σₖ mean(p,k)·Wrel(q,k) + b(q) + Σₖ x(p,k)·Wroot(q,k), which is what the reference's dense layer followed by its
    lowered ELU gives at (p, q). -/
theorem hidden_eq (x : FVec Ideal Cert.KernelIdeal.S50000x128 .f32) (ei : IVec Cert.KernelIdeal.S2x800000 32)
    (ea : FVec Ideal Cert.KernelIdeal.S800000 .f32) (wrel : FVec Ideal Cert.KernelIdeal.S128x128 .f32)
    (b : FVec Ideal Cert.KernelIdeal.S128 .f32) (wroot : FVec Ideal Cert.KernelIdeal.S128x128 .f32) :
    Ker.hidden x ei ea wrel b wroot
      = Ref.hidden (F := Ideal) x (Ref.row0 (F := Ideal) ei) (Ref.row1 (F := Ideal) ei) ea wrel b wroot := by
  funext i
  obtain ⟨p, q, rfl⟩ : ∃ (p : Fin 50000) (q : Fin 128), i = ix2 p q := ⟨i 0, i 1, eq_ix2 i⟩
  unfold Ker.hidden Ref.hidden
  rw [refElu_apply, refDense128_apply, agg_eq]
  show eluE (denseAt (M := 50000) (N := 128) _ x _ _ _ p q) = _
  unfold denseAt
  rw [bRow128_apply]
  rfl

/-- AN OUTPUT HEAD over any hidden array h: entry (p, q) of either output array of the second pallas_call is
    Σₖ mean(p,k)·Wrel(q,k) + b(q) + Σₖ h(p,k)·Wroot(q,k), the reference's dense layer at (p, q). -/
theorem head_eq (h : FVec Ideal Cert.KernelIdeal.S50000x128 .f32) (ei : IVec Cert.KernelIdeal.S2x800000 32)
    (ea : FVec Ideal Cert.KernelIdeal.S800000 .f32) (wrel : FVec Ideal Cert.KernelIdeal.S64x128 .f32)
    (b : FVec Ideal Cert.KernelIdeal.S64 .f32) (wroot : FVec Ideal Cert.KernelIdeal.S64x128 .f32) :
    Ker.head h ei ea wrel b wroot
      = Ref.head (F := Ideal) h (Ref.row0 (F := Ideal) ei) (Ref.row1 (F := Ideal) ei) ea wrel b wroot := by
  funext i
  obtain ⟨p, q, rfl⟩ : ∃ (p : Fin 50000) (q : Fin 64), i = ix2 p q := ⟨i 0, i 1, eq_ix2 i⟩
  unfold Ker.head Ref.head
  rw [refDense64_apply, agg_eq]
  show denseAt (M := 50000) (N := 64) _ h _ _ _ p q = _
  unfold denseAt
  rw [bRow64_apply]
  rfl

end Cert.Sage
end
-- ==== Proof.lean ====
/-
  A two-layer graph network: mean aggregation over incoming edges followed by a dense layer, twice — ELU after the
  first layer, two output heads (mu, logvar) after the second.

  For every node n the aggregation adds x[src e] · w e over the edges e with dst e = n and divides by
  max(1, number of such edges). A dense layer sends the aggregated row a and the node's own row x to
  a · Wrelᵀ + b + x · Wrootᵀ. The kernel program does the aggregation with the same host operations as the reference
  and hands row blocks of 5000 nodes to two pallas_calls that compute the dense layers (the first with the ELU, the
  second both heads at once); the reference computes the dense layers on whole arrays and applies jax's ELU.

  Over the extended reals the two programs return the same arrays, entry by entry: the aggregation is literally the
  same function on both sides; a block's matrix product into a zero accumulator and the whole-array product are the
  same sum over the 128 shared positions (the kernel's roundings to bf16 being the identity); the bias adds its entry
  q to entry (p, q) either way; and where z is not positive, jax's 1 · expm1(z) is the kernel's e^z − 1. Sums are only
  re-read, never re-associated across products, so no finiteness of the inputs is needed and the precondition is
  not opened.

  The three frames are the generated ones (the reference's is its run with the results dropped); nothing was rewritten
  on the way to the idealized kernel, so that conjunct is trivial.
-/
import proofs.«114850_j36369783063167_1_alg».proof.Defs
import proofs.«114850_j36369783063167_1_alg».proof.Proof.Gen.Kernel
import proofs.«114850_j36369783063167_1_alg».proof.Proof.Gen.Kernel.Skeleton
import proofs.«114850_j36369783063167_1_alg».proof.Proof.Gen.Kernel.Launch
import proofs.«114850_j36369783063167_1_alg».proof.Proof.Gen.Kernel.Points
import proofs.«114850_j36369783063167_1_alg».proof.Proof.Gen.Kernel.Frame
import proofs.«114850_j36369783063167_1_alg».proof.Proof.Gen.KernelIdeal
import proofs.«114850_j36369783063167_1_alg».proof.Proof.Gen.KernelIdeal.Skeleton
import proofs.«114850_j36369783063167_1_alg».proof.Proof.Gen.KernelIdeal.Launch
import proofs.«114850_j36369783063167_1_alg».proof.Proof.Gen.KernelIdeal.Points
import proofs.«114850_j36369783063167_1_alg».proof.Proof.Gen.KernelIdeal.Frame
import proofs.«114850_j36369783063167_1_alg».proof.Proof.Gen.ReferenceIdeal
import proofs.«114850_j36369783063167_1_alg».proof.Proof.Gen.Pre_finite_inputs
import proofs.«114850_j36369783063167_1_alg».proof.Proof.KerValue
import proofs.«114850_j36369783063167_1_alg».proof.Proof.RefRunValue
import proofs.«114850_j36369783063167_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the two results dropped. -/
theorem frame_referenceIdeal : Cert.frame_ReferenceIdeal := fun m ρ _ =>
  (θ_run Cert.ReferenceIdeal.defs _ _).mono (fun _ h c => (h c).2.2) (Cert.ReferenceIdeal.HandRun.run m ρ)

/-- Both programs end with mu and logvar at the same arrays: the kernel program's at the two pallas_calls' closed forms
    over the aggregation, the reference's at its dense layers over the same aggregation of arguments that agree. -/
theorem algebraic : Cert.algebraic_KernelIdeal_ReferenceIdeal := by
  intro m ρ m' ρ' _ hagree
  refine ⟨_, _, Cert.KernelIdeal.HandRun.run m ρ, ?_⟩
  refine (θ_run Cert.ReferenceIdeal.defs _ _).mono (fun _ h c => ⟨(h c).1.trans ?_, (h c).2.1.trans ?_, (h c).2.2⟩)
    (Cert.ReferenceIdeal.HandRun.run m' ρ')
  · obtain ⟨h0, h1, h2, h3, h4, h5, h6, h7, h8, _, _, _⟩ := hagree c
    rw [h0, h1, h2, h3, h4, h5, h6, h7, h8, Cert.Sage.hidden_eq, Cert.Sage.head_eq]
  · obtain ⟨h0, h1, h2, h3, h4, h5, _, _, _, h9, h10, h11⟩ := hagree c
    rw [h0, h1, h2, h3, h4, h5, h9, h10, h11, Cert.Sage.hidden_eq, Cert.Sage.head_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
